-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x12x64 : Shape := ⟨4, ![1, 256, 12, 64]⟩
abbrev S768x2 : Shape := ⟨2, ![768, 2]⟩
abbrev S_ : Shape := ⟨0, ![]⟩

class Facts : Prop where
  bcast_S_S1x256x12x64 : S_.BroadcastsInDim S1x256x12x64 (![] : Fin 0 → Fin S1x256x12x64.rank)
  reducesTo_S1x256x12x64_S_d0_1_2_3 : S1x256x12x64.ReducesTo [0, 1, 2, 3] S_
  h_S_ : 0 < S_.numel
  bcast_S_S768x2 : S_.BroadcastsInDim S768x2 (![] : Fin 0 → Fin S768x2.rank)
  reducesTo_S768x2_S_d0_1 : S768x2.ReducesTo [0, 1] S_

variable [Facts]

def fn {F : FTy → Type} [FloatOps F] (main_arg0 : FVec F S1x256x12x64 .f32) (main_arg1 : FVec F S768x2 .f32) : IVec S_ 1 :=
  let main_v0 : FVec F S1x256x12x64 .f32 := Host.absf main_arg0
  let main_cst : FVec F S_ .f32 := constant S_ .f32 0x7F800000#32
  let main_v1 : FVec F S1x256x12x64 .f32 := broadcastInDim S1x256x12x64 ![] bcast_S_S1x256x12x64 main_cst
  let main_v2 : IVec S1x256x12x64 1 := cmpf .olt main_v0 main_v1
  let main_c : IVec S_ 1 := constantI S_ 1 1#1
  let main_v3 : IVec S_ 1 := (fun x v => Host.reduce IntOp.andi x v reducesTo_S1x256x12x64_S_d0_1_2_3 h_S_) main_v2 main_c
  let main_v4 : FVec F S768x2 .f32 := Host.absf main_arg1
  let main_cst_0 : FVec F S_ .f32 := constant S_ .f32 0x7F800000#32
  let main_v5 : FVec F S768x2 .f32 := broadcastInDim S768x2 ![] bcast_S_S768x2 main_cst_0
  let main_v6 : IVec S768x2 1 := cmpf .olt main_v4 main_v5
  let main_c_1 : IVec S_ 1 := constantI S_ 1 1#1
  let main_v7 : IVec S_ 1 := (fun x v => Host.reduce IntOp.andi x v reducesTo_S768x2_S_d0_1 h_S_) main_v6 main_c_1
  let main_v8 : IVec S_ 1 := andi main_v3 main_v7
  main_v8
-- ==== Kernel.lean ====
abbrev S1x256x12x64 : Shape := ⟨4, ![1, 256, 12, 64]⟩
abbrev S768x2 : Shape := ⟨2, ![768, 2]⟩
abbrev S64x12x2 : Shape := ⟨3, ![64, 12, 2]⟩
abbrev S256x4096x64 : Shape := ⟨3, ![256, 4096, 64]⟩
abbrev S16x4096x64 : Shape := ⟨3, ![16, 4096, 64]⟩
abbrev S4096x64 : Shape := ⟨2, ![4096, 64]⟩
abbrev S64x1x1 : Shape := ⟨3, ![64, 1, 1]⟩
abbrev S64 : Shape := ⟨1, ![64]⟩
abbrev S1x64 : Shape := ⟨2, ![1, 64]⟩
abbrev S1x4096x64 : Shape := ⟨3, ![1, 4096, 64]⟩
abbrev S1x256x4096x64 : Shape := ⟨4, ![1, 256, 4096, 64]⟩

abbrev nBuf : Space → Nat
  | .hbm => 5
  | .vmem => 3
  | .smem => 0
  | _ => 0

abbrev bufTy : (tb : Table) → Fin (tcTables nBuf tb) → BufTy
  | .hbm, ⟨0, _⟩ => ⟨S1x256x12x64, .f32⟩
  | .hbm, ⟨1, _⟩ => ⟨S768x2, .f32⟩
  | .hbm, ⟨2, _⟩ => ⟨S64x12x2, .f32⟩
  | .hbm, ⟨3, _⟩ => ⟨S256x4096x64, .f32⟩
  | .hbm, ⟨4, _⟩ => ⟨S1x256x4096x64, .f32⟩
  | .local _ .vmem, ⟨0, _⟩ => ⟨S64x12x2, .f32⟩
  | .local _ .vmem, ⟨1, _⟩ => ⟨S16x4096x64, .f32⟩
  | .local _ .vmem, ⟨2, _⟩ => ⟨S16x4096x64, .f32⟩
  | _, _ => ⟨S1x256x12x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x12x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S768x2_S64x12x2 : S768x2.ShapeCasts S64x12x2
  inb_S64x12x2_S64x12x2_0_0_0 : ∀ a, (![0, 0, 0] : Fin 3 → Nat) a + S64x12x2.size a ≤ S64x12x2.size a
  h_S64x12x2 : 0 < S64x12x2.numel
  shapeCasts_S64x12x2_S64x12x2 : S64x12x2.ShapeCasts S64x12x2
  iota_S4096x64_d0_w32 : S4096x64.Iotas .tc 32 [0]
  slices_S64x12x2_o0_0_0_S64x1x1 : S64x12x2.Slices ![0, 0, 0] S64x1x1
  shapeCasts_S64x1x1_S64 : S64x1x1.ShapeCasts S64
  shapeCasts_S64_S1x64 : S64.ShapeCasts S1x64
  slices_S64x12x2_o0_0_1_S64x1x1 : S64x12x2.Slices ![0, 0, 1] S64x1x1
  shapeCasts_S1x64_S1x64 : S1x64.ShapeCasts S1x64
  broadcasts_S1x64_S4096x64 : S1x64.Broadcasts S4096x64
  slices_S64x12x2_o0_1_0_S64x1x1 : S64x12x2.Slices ![0, 1, 0] S64x1x1
  slices_S64x12x2_o0_1_1_S64x1x1 : S64x12x2.Slices ![0, 1, 1] S64x1x1
  slices_S64x12x2_o0_2_0_S64x1x1 : S64x12x2.Slices ![0, 2, 0] S64x1x1
  slices_S64x12x2_o0_2_1_S64x1x1 : S64x12x2.Slices ![0, 2, 1] S64x1x1
  slices_S64x12x2_o0_3_0_S64x1x1 : S64x12x2.Slices ![0, 3, 0] S64x1x1
  slices_S64x12x2_o0_3_1_S64x1x1 : S64x12x2.Slices ![0, 3, 1] S64x1x1
  slices_S64x12x2_o0_4_0_S64x1x1 : S64x12x2.Slices ![0, 4, 0] S64x1x1
  slices_S64x12x2_o0_4_1_S64x1x1 : S64x12x2.Slices ![0, 4, 1] S64x1x1
  slices_S64x12x2_o0_5_0_S64x1x1 : S64x12x2.Slices ![0, 5, 0] S64x1x1
  slices_S64x12x2_o0_5_1_S64x1x1 : S64x12x2.Slices ![0, 5, 1] S64x1x1
  slices_S64x12x2_o0_6_0_S64x1x1 : S64x12x2.Slices ![0, 6, 0] S64x1x1
  slices_S64x12x2_o0_6_1_S64x1x1 : S64x12x2.Slices ![0, 6, 1] S64x1x1
  slices_S64x12x2_o0_7_0_S64x1x1 : S64x12x2.Slices ![0, 7, 0] S64x1x1
  slices_S64x12x2_o0_7_1_S64x1x1 : S64x12x2.Slices ![0, 7, 1] S64x1x1
  slices_S64x12x2_o0_8_0_S64x1x1 : S64x12x2.Slices ![0, 8, 0] S64x1x1
  slices_S64x12x2_o0_8_1_S64x1x1 : S64x12x2.Slices ![0, 8, 1] S64x1x1
  slices_S64x12x2_o0_9_0_S64x1x1 : S64x12x2.Slices ![0, 9, 0] S64x1x1
  slices_S64x12x2_o0_9_1_S64x1x1 : S64x12x2.Slices ![0, 9, 1] S64x1x1
  slices_S64x12x2_o0_10_0_S64x1x1 : S64x12x2.Slices ![0, 10, 0] S64x1x1
  slices_S64x12x2_o0_10_1_S64x1x1 : S64x12x2.Slices ![0, 10, 1] S64x1x1
  slices_S64x12x2_o0_11_0_S64x1x1 : S64x12x2.Slices ![0, 11, 0] S64x1x1
  slices_S64x12x2_o0_11_1_S64x1x1 : S64x12x2.Slices ![0, 11, 1] S64x1x1
  inb_S16x4096x64_S1x4096x64_0_0_0 : ∀ a, (![0, 0, 0] : Fin 3 → Nat) a + S1x4096x64.size a ≤ S16x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  inb_S16x4096x64_S1x4096x64_1_0_0 : ∀ a, (![1, 0, 0] : Fin 3 → Nat) a + S1x4096x64.size a ≤ S16x4096x64.size a
  inb_S16x4096x64_S1x4096x64_2_0_0 : ∀ a, (![2, 0, 0] : Fin 3 → Nat) a + S1x4096x64.size a ≤ S16x4096x64.size a
  inb_S16x4096x64_S1x4096x64_3_0_0 : ∀ a, (![3, 0, 0] : Fin 3 → Nat) a + S1x4096x64.size a ≤ S16x4096x64.size a
  inb_S16x4096x64_S1x4096x64_4_0_0 : ∀ a, (![4, 0, 0] : Fin 3 → Nat) a + S1x4096x64.size a ≤ S16x4096x64.size a
  inb_S16x4096x64_S1x4096x64_5_0_0 : ∀ a, (![5, 0, 0] : Fin 3 → Nat) a + S1x4096x64.size a ≤ S16x4096x64.size a
  inb_S16x4096x64_S1x4096x64_6_0_0 : ∀ a, (![6, 0, 0] : Fin 3 → Nat) a + S1x4096x64.size a ≤ S16x4096x64.size a
  inb_S16x4096x64_S1x4096x64_7_0_0 : ∀ a, (![7, 0, 0] : Fin 3 → Nat) a + S1x4096x64.size a ≤ S16x4096x64.size a
  inb_S16x4096x64_S1x4096x64_8_0_0 : ∀ a, (![8, 0, 0] : Fin 3 → Nat) a + S1x4096x64.size a ≤ S16x4096x64.size a
  inb_S16x4096x64_S1x4096x64_9_0_0 : ∀ a, (![9, 0, 0] : Fin 3 → Nat) a + S1x4096x64.size a ≤ S16x4096x64.size a
  inb_S16x4096x64_S1x4096x64_10_0_0 : ∀ a, (![10, 0, 0] : Fin 3 → Nat) a + S1x4096x64.size a ≤ S16x4096x64.size a
  inb_S16x4096x64_S1x4096x64_11_0_0 : ∀ a, (![11, 0, 0] : Fin 3 → Nat) a + S1x4096x64.size a ≤ S16x4096x64.size a
  inb_S16x4096x64_S1x4096x64_12_0_0 : ∀ a, (![12, 0, 0] : Fin 3 → Nat) a + S1x4096x64.size a ≤ S16x4096x64.size a
  inb_S16x4096x64_S1x4096x64_13_0_0 : ∀ a, (![13, 0, 0] : Fin 3 → Nat) a + S1x4096x64.size a ≤ S16x4096x64.size a
  inb_S16x4096x64_S1x4096x64_14_0_0 : ∀ a, (![14, 0, 0] : Fin 3 → Nat) a + S1x4096x64.size a ≤ S16x4096x64.size a
  inb_S16x4096x64_S1x4096x64_15_0_0 : ∀ a, (![15, 0, 0] : Fin 3 → Nat) a + S1x4096x64.size a ≤ S16x4096x64.size a
  shapeCasts_S256x4096x64_S1x256x4096x64 : S256x4096x64.ShapeCasts S1x256x4096x64
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x12x2.size a ≤ S64x12x2.size a
  hwx0_0 : ∀ i : grid0.Coords, EltTy.bits .f32 = 32 ∨ (Rect.block (s := S64x12x2) S64x12x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x4096x64.size a ≤ S256x4096x64.size a
  hwx0_1 : ∀ i : grid0.Coords, EltTy.bits .f32 = 32 ∨ (Rect.block (s := S256x4096x64) S16x4096x64.size (cc0_transform_1 i) (hinb0_1 i)).WholeWords (EltTy.packing .f32)

variable [Facts₀]

abbrev win0_0 : Pipeline.Window sig grid0 :=
  Pipeline.Window.ofSpec (Memref.whole main_v0) S64x12x2.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x4096x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1x256x12x64 : Shape := ⟨4, ![1, 256, 12, 64]⟩
abbrev S768x2 : Shape := ⟨2, ![768, 2]⟩
abbrev S1x256x768x2 : Shape := ⟨4, ![1, 256, 768, 2]⟩
abbrev S1x256x64x12x2 : Shape := ⟨5, ![1, 256, 64, 12, 2]⟩
abbrev S1x256x64x1x2 : Shape := ⟨5, ![1, 256, 64, 1, 2]⟩
abbrev S1x256x64x2 : Shape := ⟨4, ![1, 256, 64, 2]⟩
abbrev S1x256x64x2x1 : Shape := ⟨5, ![1, 256, 64, 2, 1]⟩
abbrev S1x256x64x2x2 : Shape := ⟨5, ![1, 256, 64, 2, 2]⟩
abbrev S1x256x64x4 : Shape := ⟨4, ![1, 256, 64, 4]⟩
abbrev S1x256x64x4x1 : Shape := ⟨5, ![1, 256, 64, 4, 1]⟩
abbrev S1x256x64x4x2 : Shape := ⟨5, ![1, 256, 64, 4, 2]⟩
abbrev S1x256x64x8 : Shape := ⟨4, ![1, 256, 64, 8]⟩
abbrev S1x256x64x8x1 : Shape := ⟨5, ![1, 256, 64, 8, 1]⟩
abbrev S1x256x64x8x2 : Shape := ⟨5, ![1, 256, 64, 8, 2]⟩
abbrev S1x256x64x16 : Shape := ⟨4, ![1, 256, 64, 16]⟩
abbrev S1x256x64x16x1 : Shape := ⟨5, ![1, 256, 64, 16, 1]⟩
abbrev S1x256x64x16x2 : Shape := ⟨5, ![1, 256, 64, 16, 2]⟩
abbrev S1x256x64x32 : Shape := ⟨4, ![1, 256, 64, 32]⟩
abbrev S1x256x64x32x1 : Shape := ⟨5, ![1, 256, 64, 32, 1]⟩
abbrev S1x256x64x32x2 : Shape := ⟨5, ![1, 256, 64, 32, 2]⟩
abbrev S1x256x64x64 : Shape := ⟨4, ![1, 256, 64, 64]⟩
abbrev S1x256x64x64x1 : Shape := ⟨5, ![1, 256, 64, 64, 1]⟩
abbrev S1x256x64x64x2 : Shape := ⟨5, ![1, 256, 64, 64, 2]⟩
abbrev S1x256x64x128 : Shape := ⟨4, ![1, 256, 64, 128]⟩
abbrev S1x256x64x128x1 : Shape := ⟨5, ![1, 256, 64, 128, 1]⟩
abbrev S1x256x64x128x2 : Shape := ⟨5, ![1, 256, 64, 128, 2]⟩
abbrev S1x256x64x256 : Shape := ⟨4, ![1, 256, 64, 256]⟩
abbrev S1x256x64x256x1 : Shape := ⟨5, ![1, 256, 64, 256, 1]⟩
abbrev S1x256x64x256x2 : Shape := ⟨5, ![1, 256, 64, 256, 2]⟩
abbrev S1x256x64x512 : Shape := ⟨4, ![1, 256, 64, 512]⟩
abbrev S1x256x64x512x1 : Shape := ⟨5, ![1, 256, 64, 512, 1]⟩
abbrev S1x256x64x512x2 : Shape := ⟨5, ![1, 256, 64, 512, 2]⟩
abbrev S1x256x64x1024 : Shape := ⟨4, ![1, 256, 64, 1024]⟩
abbrev S1x256x64x1024x1 : Shape := ⟨5, ![1, 256, 64, 1024, 1]⟩
abbrev S1x256x64x1024x2 : Shape := ⟨5, ![1, 256, 64, 1024, 2]⟩
abbrev S1x256x64x2048 : Shape := ⟨4, ![1, 256, 64, 2048]⟩
abbrev S1x256x64x2048x1 : Shape := ⟨5, ![1, 256, 64, 2048, 1]⟩
abbrev S1x256x64x2048x2 : Shape := ⟨5, ![1, 256, 64, 2048, 2]⟩
abbrev S1x256x64x4096 : Shape := ⟨4, ![1, 256, 64, 4096]⟩
abbrev S1x256x4096x64 : Shape := ⟨4, ![1, 256, 4096, 64]⟩

abbrev nBuf : Space → Nat
  | .hbm => 95
  | .vmem => 0
  | .smem => 0
  | _ => 0

abbrev bufTy : (tb : Table) → Fin (tcTables nBuf tb) → BufTy
  | .hbm, ⟨0, _⟩ => ⟨S1x256x12x64, .f32⟩
  | .hbm, ⟨1, _⟩ => ⟨S768x2, .f32⟩
  | .hbm, ⟨2, _⟩ => ⟨S1x256x768x2, .f32⟩
  | .hbm, ⟨3, _⟩ => ⟨S1x256x64x12x2, .f32⟩
  | .hbm, ⟨4, _⟩ => ⟨S1x256x64x1x2, .f32⟩
  | .hbm, ⟨5, _⟩ => ⟨S1x256x64x2, .f32⟩
  | .hbm, ⟨6, _⟩ => ⟨S1x256x64x2x1, .f32⟩
  | .hbm, ⟨7, _⟩ => ⟨S1x256x64x1x2, .f32⟩
  | .hbm, ⟨8, _⟩ => ⟨S1x256x64x2, .f32⟩
  | .hbm, ⟨9, _⟩ => ⟨S1x256x64x1x2, .f32⟩
  | .hbm, ⟨10, _⟩ => ⟨S1x256x64x2x2, .f32⟩
  | .hbm, ⟨11, _⟩ => ⟨S1x256x64x2x2, .f32⟩
  | .hbm, ⟨12, _⟩ => ⟨S1x256x64x2x2, .f32⟩
  | .hbm, ⟨13, _⟩ => ⟨S1x256x64x4, .f32⟩
  | .hbm, ⟨14, _⟩ => ⟨S1x256x64x4x1, .f32⟩
  | .hbm, ⟨15, _⟩ => ⟨S1x256x64x1x2, .f32⟩
  | .hbm, ⟨16, _⟩ => ⟨S1x256x64x2, .f32⟩
  | .hbm, ⟨17, _⟩ => ⟨S1x256x64x1x2, .f32⟩
  | .hbm, ⟨18, _⟩ => ⟨S1x256x64x4x2, .f32⟩
  | .hbm, ⟨19, _⟩ => ⟨S1x256x64x4x2, .f32⟩
  | .hbm, ⟨20, _⟩ => ⟨S1x256x64x4x2, .f32⟩
  | .hbm, ⟨21, _⟩ => ⟨S1x256x64x8, .f32⟩
  | .hbm, ⟨22, _⟩ => ⟨S1x256x64x8x1, .f32⟩
  | .hbm, ⟨23, _⟩ => ⟨S1x256x64x1x2, .f32⟩
  | .hbm, ⟨24, _⟩ => ⟨S1x256x64x2, .f32⟩
  | .hbm, ⟨25, _⟩ => ⟨S1x256x64x1x2, .f32⟩
  | .hbm, ⟨26, _⟩ => ⟨S1x256x64x8x2, .f32⟩
  | .hbm, ⟨27, _⟩ => ⟨S1x256x64x8x2, .f32⟩
  | .hbm, ⟨28, _⟩ => ⟨S1x256x64x8x2, .f32⟩
  | .hbm, ⟨29, _⟩ => ⟨S1x256x64x16, .f32⟩
  | .hbm, ⟨30, _⟩ => ⟨S1x256x64x16x1, .f32⟩
  | .hbm, ⟨31, _⟩ => ⟨S1x256x64x1x2, .f32⟩
  | .hbm, ⟨32, _⟩ => ⟨S1x256x64x2, .f32⟩
  | .hbm, ⟨33, _⟩ => ⟨S1x256x64x1x2, .f32⟩
  | .hbm, ⟨34, _⟩ => ⟨S1x256x64x16x2, .f32⟩
  | .hbm, ⟨35, _⟩ => ⟨S1x256x64x16x2, .f32⟩
  | .hbm, ⟨36, _⟩ => ⟨S1x256x64x16x2, .f32⟩
  | .hbm, ⟨37, _⟩ => ⟨S1x256x64x32, .f32⟩
  | .hbm, ⟨38, _⟩ => ⟨S1x256x64x32x1, .f32⟩
  | .hbm, ⟨39, _⟩ => ⟨S1x256x64x1x2, .f32⟩
  | .hbm, ⟨40, _⟩ => ⟨S1x256x64x2, .f32⟩
  | .hbm, ⟨41, _⟩ => ⟨S1x256x64x1x2, .f32⟩
  | .hbm, ⟨42, _⟩ => ⟨S1x256x64x32x2, .f32⟩
  | .hbm, ⟨43, _⟩ => ⟨S1x256x64x32x2, .f32⟩
  | .hbm, ⟨44, _⟩ => ⟨S1x256x64x32x2, .f32⟩
  | .hbm, ⟨45, _⟩ => ⟨S1x256x64x64, .f32⟩
  | .hbm, ⟨46, _⟩ => ⟨S1x256x64x64x1, .f32⟩
  | .hbm, ⟨47, _⟩ => ⟨S1x256x64x1x2, .f32⟩
  | .hbm, ⟨48, _⟩ => ⟨S1x256x64x2, .f32⟩
  | .hbm, ⟨49, _⟩ => ⟨S1x256x64x1x2, .f32⟩
  | .hbm, ⟨50, _⟩ => ⟨S1x256x64x64x2, .f32⟩
  | .hbm, ⟨51, _⟩ => ⟨S1x256x64x64x2, .f32⟩
  | .hbm, ⟨52, _⟩ => ⟨S1x256x64x64x2, .f32⟩
  | .hbm, ⟨53, _⟩ => ⟨S1x256x64x128, .f32⟩
  | .hbm, ⟨54, _⟩ => ⟨S1x256x64x128x1, .f32⟩
  | .hbm, ⟨55, _⟩ => ⟨S1x256x64x1x2, .f32⟩
  | .hbm, ⟨56, _⟩ => ⟨S1x256x64x2, .f32⟩
  | .hbm, ⟨57, _⟩ => ⟨S1x256x64x1x2, .f32⟩
  | .hbm, ⟨58, _⟩ => ⟨S1x256x64x128x2, .f32⟩
  | .hbm, ⟨59, _⟩ => ⟨S1x256x64x128x2, .f32⟩
  | .hbm, ⟨60, _⟩ => ⟨S1x256x64x128x2, .f32⟩
  | .hbm, ⟨61, _⟩ => ⟨S1x256x64x256, .f32⟩
  | .hbm, ⟨62, _⟩ => ⟨S1x256x64x256x1, .f32⟩
  | .hbm, ⟨63, _⟩ => ⟨S1x256x64x1x2, .f32⟩
  | .hbm, ⟨64, _⟩ => ⟨S1x256x64x2, .f32⟩
  | .hbm, ⟨65, _⟩ => ⟨S1x256x64x1x2, .f32⟩
  | .hbm, ⟨66, _⟩ => ⟨S1x256x64x256x2, .f32⟩
  | .hbm, ⟨67, _⟩ => ⟨S1x256x64x256x2, .f32⟩
  | .hbm, ⟨68, _⟩ => ⟨S1x256x64x256x2, .f32⟩
  | .hbm, ⟨69, _⟩ => ⟨S1x256x64x512, .f32⟩
  | .hbm, ⟨70, _⟩ => ⟨S1x256x64x512x1, .f32⟩
  | .hbm, ⟨71, _⟩ => ⟨S1x256x64x1x2, .f32⟩
  | .hbm, ⟨72, _⟩ => ⟨S1x256x64x2, .f32⟩
  | .hbm, ⟨73, _⟩ => ⟨S1x256x64x1x2, .f32⟩
  | .hbm, ⟨74, _⟩ => ⟨S1x256x64x512x2, .f32⟩
  | .hbm, ⟨75, _⟩ => ⟨S1x256x64x512x2, .f32⟩
  | .hbm, ⟨76, _⟩ => ⟨S1x256x64x512x2, .f32⟩
  | .hbm, ⟨77, _⟩ => ⟨S1x256x64x1024, .f32⟩
  | .hbm, ⟨78, _⟩ => ⟨S1x256x64x1024x1, .f32⟩
  | .hbm, ⟨79, _⟩ => ⟨S1x256x64x1x2, .f32⟩
  | .hbm, ⟨80, _⟩ => ⟨S1x256x64x2, .f32⟩
  | .hbm, ⟨81, _⟩ => ⟨S1x256x64x1x2, .f32⟩
  | .hbm, ⟨82, _⟩ => ⟨S1x256x64x1024x2, .f32⟩
  | .hbm, ⟨83, _⟩ => ⟨S1x256x64x1024x2, .f32⟩
  | .hbm, ⟨84, _⟩ => ⟨S1x256x64x1024x2, .f32⟩
  | .hbm, ⟨85, _⟩ => ⟨S1x256x64x2048, .f32⟩
  | .hbm, ⟨86, _⟩ => ⟨S1x256x64x2048x1, .f32⟩
  | .hbm, ⟨87, _⟩ => ⟨S1x256x64x1x2, .f32⟩
  | .hbm, ⟨88, _⟩ => ⟨S1x256x64x2, .f32⟩
  | .hbm, ⟨89, _⟩ => ⟨S1x256x64x1x2, .f32⟩
  | .hbm, ⟨90, _⟩ => ⟨S1x256x64x2048x2, .f32⟩
  | .hbm, ⟨91, _⟩ => ⟨S1x256x64x2048x2, .f32⟩
  | .hbm, ⟨92, _⟩ => ⟨S1x256x64x2048x2, .f32⟩
  | .hbm, ⟨93, _⟩ => ⟨S1x256x64x4096, .f32⟩
  | .hbm, ⟨94, _⟩ => ⟨S1x256x4096x64, .f32⟩
  | _, _ => ⟨S1x256x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩

abbrev nD : Nat := 1
abbrev τ : Topo := Topo.v7x

variable {F : FTy → Type} [FloatOps F]

class Facts₀ : Prop where
  bcast_S768x2_S1x256x768x2_2_3 : S768x2.BroadcastsInDim S1x256x768x2 (![2, 3] : Fin 2 → Fin S1x256x768x2.rank)
  shapeCasts_S1x256x768x2_S1x256x64x12x2 : S1x256x768x2.ShapeCasts S1x256x64x12x2
  slices_S1x256x64x12x2_S1x256x64x1x2_0_0_0_0_0 : S1x256x64x12x2.Slices ![0, 0, 0, 0, 0] S1x256x64x1x2
  shapeCasts_S1x256x64x1x2_S1x256x64x2 : S1x256x64x1x2.ShapeCasts S1x256x64x2
  bcast_S1x256x64x2_S1x256x64x2x1_0_1_2_3 : S1x256x64x2.BroadcastsInDim S1x256x64x2x1 (![0, 1, 2, 3] : Fin 4 → Fin S1x256x64x2x1.rank)
  slices_S1x256x64x12x2_S1x256x64x1x2_0_0_0_1_0 : S1x256x64x12x2.Slices ![0, 0, 0, 1, 0] S1x256x64x1x2
  bcast_S1x256x64x2_S1x256x64x1x2_0_1_2_4 : S1x256x64x2.BroadcastsInDim S1x256x64x1x2 (![0, 1, 2, 4] : Fin 4 → Fin S1x256x64x1x2.rank)
  bcast_S1x256x64x2x1_S1x256x64x2x2_0_1_2_3_4 : S1x256x64x2x1.BroadcastsInDim S1x256x64x2x2 (![0, 1, 2, 3, 4] : Fin 5 → Fin S1x256x64x2x2.rank)
  bcast_S1x256x64x1x2_S1x256x64x2x2_0_1_2_3_4 : S1x256x64x1x2.BroadcastsInDim S1x256x64x2x2 (![0, 1, 2, 3, 4] : Fin 5 → Fin S1x256x64x2x2.rank)
  shapeCasts_S1x256x64x2x2_S1x256x64x4 : S1x256x64x2x2.ShapeCasts S1x256x64x4
  bcast_S1x256x64x4_S1x256x64x4x1_0_1_2_3 : S1x256x64x4.BroadcastsInDim S1x256x64x4x1 (![0, 1, 2, 3] : Fin 4 → Fin S1x256x64x4x1.rank)
  slices_S1x256x64x12x2_S1x256x64x1x2_0_0_0_2_0 : S1x256x64x12x2.Slices ![0, 0, 0, 2, 0] S1x256x64x1x2
  bcast_S1x256x64x4x1_S1x256x64x4x2_0_1_2_3_4 : S1x256x64x4x1.BroadcastsInDim S1x256x64x4x2 (![0, 1, 2, 3, 4] : Fin 5 → Fin S1x256x64x4x2.rank)
  bcast_S1x256x64x1x2_S1x256x64x4x2_0_1_2_3_4 : S1x256x64x1x2.BroadcastsInDim S1x256x64x4x2 (![0, 1, 2, 3, 4] : Fin 5 → Fin S1x256x64x4x2.rank)
  shapeCasts_S1x256x64x4x2_S1x256x64x8 : S1x256x64x4x2.ShapeCasts S1x256x64x8
  bcast_S1x256x64x8_S1x256x64x8x1_0_1_2_3 : S1x256x64x8.BroadcastsInDim S1x256x64x8x1 (![0, 1, 2, 3] : Fin 4 → Fin S1x256x64x8x1.rank)
  slices_S1x256x64x12x2_S1x256x64x1x2_0_0_0_3_0 : S1x256x64x12x2.Slices ![0, 0, 0, 3, 0] S1x256x64x1x2
  bcast_S1x256x64x8x1_S1x256x64x8x2_0_1_2_3_4 : S1x256x64x8x1.BroadcastsInDim S1x256x64x8x2 (![0, 1, 2, 3, 4] : Fin 5 → Fin S1x256x64x8x2.rank)
  bcast_S1x256x64x1x2_S1x256x64x8x2_0_1_2_3_4 : S1x256x64x1x2.BroadcastsInDim S1x256x64x8x2 (![0, 1, 2, 3, 4] : Fin 5 → Fin S1x256x64x8x2.rank)
  shapeCasts_S1x256x64x8x2_S1x256x64x16 : S1x256x64x8x2.ShapeCasts S1x256x64x16
  bcast_S1x256x64x16_S1x256x64x16x1_0_1_2_3 : S1x256x64x16.BroadcastsInDim S1x256x64x16x1 (![0, 1, 2, 3] : Fin 4 → Fin S1x256x64x16x1.rank)
  slices_S1x256x64x12x2_S1x256x64x1x2_0_0_0_4_0 : S1x256x64x12x2.Slices ![0, 0, 0, 4, 0] S1x256x64x1x2
  bcast_S1x256x64x16x1_S1x256x64x16x2_0_1_2_3_4 : S1x256x64x16x1.BroadcastsInDim S1x256x64x16x2 (![0, 1, 2, 3, 4] : Fin 5 → Fin S1x256x64x16x2.rank)
  bcast_S1x256x64x1x2_S1x256x64x16x2_0_1_2_3_4 : S1x256x64x1x2.BroadcastsInDim S1x256x64x16x2 (![0, 1, 2, 3, 4] : Fin 5 → Fin S1x256x64x16x2.rank)
  shapeCasts_S1x256x64x16x2_S1x256x64x32 : S1x256x64x16x2.ShapeCasts S1x256x64x32
  bcast_S1x256x64x32_S1x256x64x32x1_0_1_2_3 : S1x256x64x32.BroadcastsInDim S1x256x64x32x1 (![0, 1, 2, 3] : Fin 4 → Fin S1x256x64x32x1.rank)
  slices_S1x256x64x12x2_S1x256x64x1x2_0_0_0_5_0 : S1x256x64x12x2.Slices ![0, 0, 0, 5, 0] S1x256x64x1x2
  bcast_S1x256x64x32x1_S1x256x64x32x2_0_1_2_3_4 : S1x256x64x32x1.BroadcastsInDim S1x256x64x32x2 (![0, 1, 2, 3, 4] : Fin 5 → Fin S1x256x64x32x2.rank)
  bcast_S1x256x64x1x2_S1x256x64x32x2_0_1_2_3_4 : S1x256x64x1x2.BroadcastsInDim S1x256x64x32x2 (![0, 1, 2, 3, 4] : Fin 5 → Fin S1x256x64x32x2.rank)
  shapeCasts_S1x256x64x32x2_S1x256x64x64 : S1x256x64x32x2.ShapeCasts S1x256x64x64
  bcast_S1x256x64x64_S1x256x64x64x1_0_1_2_3 : S1x256x64x64.BroadcastsInDim S1x256x64x64x1 (![0, 1, 2, 3] : Fin 4 → Fin S1x256x64x64x1.rank)
  slices_S1x256x64x12x2_S1x256x64x1x2_0_0_0_6_0 : S1x256x64x12x2.Slices ![0, 0, 0, 6, 0] S1x256x64x1x2
  bcast_S1x256x64x64x1_S1x256x64x64x2_0_1_2_3_4 : S1x256x64x64x1.BroadcastsInDim S1x256x64x64x2 (![0, 1, 2, 3, 4] : Fin 5 → Fin S1x256x64x64x2.rank)
  bcast_S1x256x64x1x2_S1x256x64x64x2_0_1_2_3_4 : S1x256x64x1x2.BroadcastsInDim S1x256x64x64x2 (![0, 1, 2, 3, 4] : Fin 5 → Fin S1x256x64x64x2.rank)
  shapeCasts_S1x256x64x64x2_S1x256x64x128 : S1x256x64x64x2.ShapeCasts S1x256x64x128
  bcast_S1x256x64x128_S1x256x64x128x1_0_1_2_3 : S1x256x64x128.BroadcastsInDim S1x256x64x128x1 (![0, 1, 2, 3] : Fin 4 → Fin S1x256x64x128x1.rank)
  slices_S1x256x64x12x2_S1x256x64x1x2_0_0_0_7_0 : S1x256x64x12x2.Slices ![0, 0, 0, 7, 0] S1x256x64x1x2
  bcast_S1x256x64x128x1_S1x256x64x128x2_0_1_2_3_4 : S1x256x64x128x1.BroadcastsInDim S1x256x64x128x2 (![0, 1, 2, 3, 4] : Fin 5 → Fin S1x256x64x128x2.rank)
  bcast_S1x256x64x1x2_S1x256x64x128x2_0_1_2_3_4 : S1x256x64x1x2.BroadcastsInDim S1x256x64x128x2 (![0, 1, 2, 3, 4] : Fin 5 → Fin S1x256x64x128x2.rank)
  shapeCasts_S1x256x64x128x2_S1x256x64x256 : S1x256x64x128x2.ShapeCasts S1x256x64x256
  bcast_S1x256x64x256_S1x256x64x256x1_0_1_2_3 : S1x256x64x256.BroadcastsInDim S1x256x64x256x1 (![0, 1, 2, 3] : Fin 4 → Fin S1x256x64x256x1.rank)
  slices_S1x256x64x12x2_S1x256x64x1x2_0_0_0_8_0 : S1x256x64x12x2.Slices ![0, 0, 0, 8, 0] S1x256x64x1x2
  bcast_S1x256x64x256x1_S1x256x64x256x2_0_1_2_3_4 : S1x256x64x256x1.BroadcastsInDim S1x256x64x256x2 (![0, 1, 2, 3, 4] : Fin 5 → Fin S1x256x64x256x2.rank)
  bcast_S1x256x64x1x2_S1x256x64x256x2_0_1_2_3_4 : S1x256x64x1x2.BroadcastsInDim S1x256x64x256x2 (![0, 1, 2, 3, 4] : Fin 5 → Fin S1x256x64x256x2.rank)
  shapeCasts_S1x256x64x256x2_S1x256x64x512 : S1x256x64x256x2.ShapeCasts S1x256x64x512
  bcast_S1x256x64x512_S1x256x64x512x1_0_1_2_3 : S1x256x64x512.BroadcastsInDim S1x256x64x512x1 (![0, 1, 2, 3] : Fin 4 → Fin S1x256x64x512x1.rank)
  slices_S1x256x64x12x2_S1x256x64x1x2_0_0_0_9_0 : S1x256x64x12x2.Slices ![0, 0, 0, 9, 0] S1x256x64x1x2
  bcast_S1x256x64x512x1_S1x256x64x512x2_0_1_2_3_4 : S1x256x64x512x1.BroadcastsInDim S1x256x64x512x2 (![0, 1, 2, 3, 4] : Fin 5 → Fin S1x256x64x512x2.rank)
  bcast_S1x256x64x1x2_S1x256x64x512x2_0_1_2_3_4 : S1x256x64x1x2.BroadcastsInDim S1x256x64x512x2 (![0, 1, 2, 3, 4] : Fin 5 → Fin S1x256x64x512x2.rank)
  shapeCasts_S1x256x64x512x2_S1x256x64x1024 : S1x256x64x512x2.ShapeCasts S1x256x64x1024
  bcast_S1x256x64x1024_S1x256x64x1024x1_0_1_2_3 : S1x256x64x1024.BroadcastsInDim S1x256x64x1024x1 (![0, 1, 2, 3] : Fin 4 → Fin S1x256x64x1024x1.rank)
  slices_S1x256x64x12x2_S1x256x64x1x2_0_0_0_10_0 : S1x256x64x12x2.Slices ![0, 0, 0, 10, 0] S1x256x64x1x2
  bcast_S1x256x64x1024x1_S1x256x64x1024x2_0_1_2_3_4 : S1x256x64x1024x1.BroadcastsInDim S1x256x64x1024x2 (![0, 1, 2, 3, 4] : Fin 5 → Fin S1x256x64x1024x2.rank)
  bcast_S1x256x64x1x2_S1x256x64x1024x2_0_1_2_3_4 : S1x256x64x1x2.BroadcastsInDim S1x256x64x1024x2 (![0, 1, 2, 3, 4] : Fin 5 → Fin S1x256x64x1024x2.rank)
  shapeCasts_S1x256x64x1024x2_S1x256x64x2048 : S1x256x64x1024x2.ShapeCasts S1x256x64x2048
  bcast_S1x256x64x2048_S1x256x64x2048x1_0_1_2_3 : S1x256x64x2048.BroadcastsInDim S1x256x64x2048x1 (![0, 1, 2, 3] : Fin 4 → Fin S1x256x64x2048x1.rank)
  slices_S1x256x64x12x2_S1x256x64x1x2_0_0_0_11_0 : S1x256x64x12x2.Slices ![0, 0, 0, 11, 0] S1x256x64x1x2
  bcast_S1x256x64x2048x1_S1x256x64x2048x2_0_1_2_3_4 : S1x256x64x2048x1.BroadcastsInDim S1x256x64x2048x2 (![0, 1, 2, 3, 4] : Fin 5 → Fin S1x256x64x2048x2.rank)
  bcast_S1x256x64x1x2_S1x256x64x2048x2_0_1_2_3_4 : S1x256x64x1x2.BroadcastsInDim S1x256x64x2048x2 (![0, 1, 2, 3, 4] : Fin 5 → Fin S1x256x64x2048x2.rank)
  shapeCasts_S1x256x64x2048x2_S1x256x64x4096 : S1x256x64x2048x2.ShapeCasts S1x256x64x4096
  transposes_S1x256x64x4096_S1x256x4096x64_0_1_3_2 : S1x256x64x4096.Transposes [0, 1, 3, 2] S1x256x4096x64

variable [Facts₀]

class Facts : Prop extends Facts₀ where

variable [Facts]
-- ==== Proof.KronSpec.lean ====
/-
  The value both programs compute, stated once over the naturals.

  The argument table `amp` has 768 rows of two entries. Row `12·c + s` is the pair of amplitudes of
  step `s` (0 ≤ s < 12) of cell `c` (0 ≤ c < 64). The result, at batch entry `n`, row `r` (0 ≤ r < 4096) and
  column `c`, is the Kronecker product of the twelve pairs of cell `c` read at position `r`:
  the product over the steps `s` of entry `(12·c + s, bit (11 − s) of r)`, the first step taking the most
  significant bit. It does not depend on `n`, and the first argument of the two programs is not read at all.

  `kron` spells the product by the doubling recursion: the product over steps `0 … k+1` at position `j` is the
  product over steps `0 … k` at position `j / 2` times the entry of step `k+1` chosen by `j % 2`. Unfolding the
  recursion eleven times writes the same value as a left-nested product whose step `s` is chosen by
  `r / 2^(11−s) % 2` (`kron_eleven`). No law of the extended reals beyond `1 · x = x` is used: the factors are
  multiplied in the same order and with the same bracketing on both sides, so infinite entries need no care.
-/
import Idealize.ShloMosaic.PureOps.Ideal
import Idealize.ShloMosaic.Lib.ValueIdx

noncomputable section

namespace Cert.KronSpec

open Idealize.ShloMosaic Idealize.ShloMosaic.ValueIdx

/-- Entry `(12·c + s, b)` of the table, as a total function of three naturals (zero outside the table). -/
def entry (x : (⟨2, ![768, 2]⟩ : Shape).Idx → EReal) (c s b : ℕ) : EReal :=
  if h : c * 12 + s < 768 ∧ b < 2 then x (ix2 ⟨c * 12 + s, h.1⟩ ⟨b, h.2⟩) else 0

/-- The table at any index whose coordinates are `12·c + s` and `b` is `entry x c s b`. -/
theorem entry_eq (x : (⟨2, ![768, 2]⟩ : Shape).Idx → EReal) (i : (⟨2, ![768, 2]⟩ : Shape).Idx) (c s b : ℕ)
    (h0 : (i 0).val = c * 12 + s) (h1 : (i 1).val = b) : x i = entry x c s b := by
  have hlt : c * 12 + s < 768 ∧ b < 2 := ⟨h0 ▸ (i 0).isLt, h1 ▸ (i 1).isLt⟩
  unfold entry
  rw [dif_pos hlt]
  refine congrArg x ?_
  funext a
  match a with
  | ⟨0, _⟩ => exact Fin.ext h0
  | ⟨1, _⟩ => exact Fin.ext h1

/-- The Kronecker product of the pairs `a 0, …, a k` at position `j`, by doubling: the last pair is chosen by the
    lowest bit of `j`, the earlier ones by the higher bits. -/
def kron (a : ℕ → ℕ → EReal) : ℕ → ℕ → EReal
  | 0, j => a 0 (j % 2)
  | k + 1, j => kron a k (j / 2) * a (k + 1) (j % 2)

theorem kron_zero (a : ℕ → ℕ → EReal) (j : ℕ) : kron a 0 j = a 0 (j % 2) := rfl

theorem kron_succ (a : ℕ → ℕ → EReal) (k j : ℕ) : kron a (k + 1) j = kron a k (j / 2) * a (k + 1) (j % 2) := rfl

/-- Choosing between the two entries of a pair by a bit written as `q % 2 = 1` is reading the pair at `q % 2`. -/
theorem ite_bit (a : ℕ → EReal) (q : ℕ) : (if q % 2 = 1 then a 1 else a 0) = a (q % 2) := by
  rcases Nat.mod_two_eq_zero_or_one q with h | h
  · rw [h, if_neg (by decide)]
  · rw [h, if_pos rfl]

/-- Twelve pairs: the doubling recursion unfolded is the left-nested product, started from one, whose step `s` reads
    its pair at bit `11 − s` of the position. -/
theorem kron_eleven (a : ℕ → ℕ → EReal) (r : ℕ) :
    kron a 11 r =
      1 * a 0 (r / 2 ^ 11 % 2) * a 1 (r / 2 ^ 10 % 2) * a 2 (r / 2 ^ 9 % 2) * a 3 (r / 2 ^ 8 % 2)
        * a 4 (r / 2 ^ 7 % 2) * a 5 (r / 2 ^ 6 % 2) * a 6 (r / 2 ^ 5 % 2) * a 7 (r / 2 ^ 4 % 2)
        * a 8 (r / 2 ^ 3 % 2) * a 9 (r / 2 ^ 2 % 2) * a 10 (r / 2 ^ 1 % 2) * a 11 (r / 2 ^ 0 % 2) := by
  simp only [kron_succ, kron_zero, Nat.div_div_eq_div_mul, one_mul]
  norm_num

/-- The result array `[1, 256, 4096, 64]` as one function of the table: at `(g, n, r, c)` the Kronecker product of
    cell `c`'s twelve pairs at position `r`. -/
def G (x : (⟨2, ![768, 2]⟩ : Shape).Idx → EReal) : (⟨4, ![1, 256, 4096, 64]⟩ : Shape).Idx → EReal :=
  fun i => kron (entry x (i 3).val) 11 (i 2).val

end Cert.KronSpec

end
-- ==== Proof.BitSelect.lean ====
/-
  One bit of a row number, as the kernel computes it on 32-bit words.

  For a row number `r` below `2^31` and a shift amount `k` below 32, the arithmetic right shift of the word of `r`
  by `k` is the word of `r / 2^k` (the sign bit is clear, so the arithmetic shift is the logical one), masking with
  `1` keeps its parity, and the comparison with `1` is therefore the test `r / 2^k % 2 = 1`: the select built on
  that comparison chooses its first branch exactly when bit `k` of `r` is set.
-/
import Idealize.ShloMosaic.PureOps.Ideal

namespace Cert.BitSelect

open Idealize.ShloMosaic

/-- A word masked with `1` is `1` exactly when its value is odd. -/
theorem and_one_eq_one_iff (y : BitVec 32) : (y &&& 1#32 = 1#32) ↔ y.toNat % 2 = 1 := by
  rw [← BitVec.toNat_inj, BitVec.toNat_and]
  simp [Nat.and_one_is_mod]

/-- The arithmetic right shift of a non-negative word by less than the width is division by the power of two. -/
theorem toNat_shrsi (r k : ℕ) (hr : r < 2 ^ 31) (hk : k < 32) :
    (IntOp.shrsi .vector (BitVec.ofNat 32 r) (BitVec.ofNat 32 k)).toNat = r / 2 ^ k := by
  have hk' : (BitVec.ofNat 32 k).toNat = k := by
    rw [BitVec.toNat_ofNat]; exact Nat.mod_eq_of_lt (by omega)
  have hr' : (BitVec.ofNat 32 r).toNat = r := by
    rw [BitVec.toNat_ofNat]; exact Nat.mod_eq_of_lt (by omega)
  have hmsb : (BitVec.ofNat 32 r).msb = false := by
    rw [BitVec.msb_eq_decide, hr']; simp; omega
  unfold IntOp.shrsi
  rw [if_pos (by rw [hk']; exact hk)]
  show ((BitVec.ofNat 32 r).sshiftRight (BitVec.ofNat 32 k).toNat).toNat = _
  rw [hk', BitVec.sshiftRight_eq_of_msb_false hmsb, BitVec.toNat_ushiftRight, hr', Nat.shiftRight_eq_div_pow]

/-- The select on "bit `k` of `r` is set", computed as shift, mask and compare, is the `if` on `r / 2^k % 2 = 1`. -/
theorem select_bit {α : Type} (r k : ℕ) (hr : r < 2 ^ 31) (hk : k < 32) (A B : α) :
    Scalar.select (IntOp.cmpi .eq (IntOp.andi (IntOp.shrsi .vector (BitVec.ofNat 32 r) (BitVec.ofNat 32 k)) 1#32) 1#32) A B
      = if r / 2 ^ k % 2 = 1 then A else B := by
  have hc : ∀ X : BitVec 32, IntOp.cmpi .eq X 1#32 = BitVec.ofBool (X == 1#32) := fun _ => rfl
  unfold Scalar.select IntOp.andi
  rw [hc]
  have h := and_one_eq_one_iff (IntOp.shrsi .vector (BitVec.ofNat 32 r) (BitVec.ofNat 32 k))
  rw [toNat_shrsi r k hr hk] at h
  by_cases hb : r / 2 ^ k % 2 = 1
  · have e : (IntOp.shrsi .vector (BitVec.ofNat 32 r) (BitVec.ofNat 32 k) &&& 1#32 == 1#32) = true := by
      rw [beq_iff_eq]; exact h.2 hb
    rw [if_pos hb, e]
    exact if_pos (by decide)
  · have e : (IntOp.shrsi .vector (BitVec.ofNat 32 r) (BitVec.ofNat 32 k) &&& 1#32 == 1#32) = false := by
      rw [beq_eq_false_iff_ne]; exact fun e => hb (h.1 e)
    rw [if_neg hb, e]
    exact if_neg (by decide)

end Cert.BitSelect
-- ==== Proof.KernelBody.lean ====
/-
  The kernel's body at one entry of its output block.

  The body loads the whole [64, 12, 2] table `v` (cell, step, bit) and builds a [4096, 64] array `K` as a running product
  that starts from the all-ones array: for step `s = 0, …, 11` it multiplies, at row `r` and column `c`, by
  `v (c, s, 1)` when bit `11 − s` of `r` is set and by `v (c, s, 0)` otherwise. The bit is computed on 32-bit words
  (row number shifted right by `11 − s`, masked with 1, compared with 1: `Cert.BitSelect.select_bit`); the two candidates are
  one column of the table laid as a row and spread down the 4096 rows (`pick_apply`). So one factor at `(r, c)` is
  `v (c, s, r / 2^(11−s) % 2)` (`factor_apply`), and the whole product is the Kronecker product of cell `c`'s twelve pairs at
  position `r` (`body_apply`, by `Cert.KronSpec.kron_eleven`). The printed body is cut into stretches that compute two, three,
  three, three and one of the twelve factors; one lemma per stretch reads it as "what came in, times its factors".
-/
import proofs.«165443_j89146341196029_2_alg».proof.Proof.Gen.KernelIdeal.Skeleton
import proofs.«165443_j89146341196029_2_alg».proof.Proof.KronSpec
import proofs.«165443_j89146341196029_2_alg».proof.Proof.BitSelect
import Idealize.ShloMosaic.Lib.Pipeline.Value
import Idealize.ShloMosaic.Lib.ValueIdx
import Idealize.ShloMosaic.PureOps.IdealRules

noncomputable section

namespace Cert.KronKernel

open Idealize.ShloMosaic Idealize.ShloMosaic.ValueIdx Cert.KernelIdeal Cert.KernelIdeal.Gen Cert.KronSpec

/-- Column `(s, b)` of the table, taken as a [64, 1, 1] slice, flattened, laid as one row [1, 64] and spread over the 4096
    rows, reads at `(r, c)` the table's entry `(c, s, b)`: the row number plays no part. -/
theorem pick_apply (v : S64x12x2.Idx → EReal) (off : Fin 3 → Nat) (hs : S64x12x2.Slices off S64x1x1)
    (h1 : S64x1x1.ShapeCasts S64) (h2 : S64.ShapeCasts S1x64) (h3 : S1x64.ShapeCasts S1x64) (h4 : S1x64.Broadcasts S4096x64)
    (s : Fin 12) (b : Fin 2) (hoff : off = ![0, s.val, b.val]) (r : Fin 4096) (c : Fin 64) :
    broadcastTo S4096x64 (shapeCast S1x64 (shapeCast S1x64 (shapeCast S64 (extractStridedSlice S64x1x1 off v hs) h1) h2) h3) h4 (ix2 r c)
      = v (ix3 c s b) := by
  subst hoff
  rw [shapeCast_self]
  rw [broadcastTo_apply _ h4 (ix2 r c) (ix2 (0 : Fin 1) c) (fun a => by
    match a with
    | ⟨0, _⟩ => show 0 = if (1 : Nat) = 1 then 0 else _; rw [if_pos rfl]
    | ⟨1, _⟩ => show c.val = if (64 : Nat) = 1 then 0 else c.val; rw [if_neg (by decide)])]
  rw [shapeCast_apply _ h2 (ix2 (0 : Fin 1) c) (ix1 c) (by rw [Shape.rowMajor_val_one, Shape.rowMajor_val_two]; show c.val = 0 * 64 + c.val; omega)]
  rw [shapeCast_apply _ h1 (ix1 c) (ix3 c (0 : Fin 1) (0 : Fin 1)) (by rw [Shape.rowMajor_val_three, Shape.rowMajor_val_one]; show (c.val * 1 + 0) * 1 + 0 = c.val; omega)]
  exact extractStridedSlice_apply _ v hs (ix3 c (0 : Fin 1) (0 : Fin 1)) (ix3 c s b) (fun a => by
    match a with
    | ⟨0, _⟩ => show c.val = 0 + c.val; omega
    | ⟨1, _⟩ => show s.val = s.val + 0; omega
    | ⟨2, _⟩ => show b.val = b.val + 0; omega)

/-- The one-bit mask "bit `k` of the row number is set" at `(r, c)`, on words: the row number is the iota along axis 0. -/
theorem mask_apply (hi : S4096x64.Iotas .tc 32 [0]) (k : ℕ) (r : Fin 4096) (c : Fin 64) :
    cmpi .eq (andi (shrsi (iota .tc S4096x64 32 [0] hi) (broadcast S4096x64 (BitVec.ofNat 32 k))) (broadcast S4096x64 1#32))
        (broadcast S4096x64 1#32) (ix2 r c)
      = IntOp.cmpi .eq (IntOp.andi (IntOp.shrsi .vector (BitVec.ofNat 32 r.val) (BitVec.ofNat 32 k)) 1#32) 1#32 := by
  show IntOp.cmpi .eq (IntOp.andi (IntOp.shrsi .vector (iota .tc S4096x64 32 [0] hi (ix2 r c)) (BitVec.ofNat 32 k)) 1#32) 1#32 = _
  rw [iota_single_apply]

/-- One factor of the product at `(r, c)`: the select between columns `(s, 1)` and `(s, 0)` of the table on bit `k` of `r` is
    entry `r / 2^k % 2` of pair `s` of cell `c`. The table's entries of cell `c` are given as a function `a` of two naturals. -/
theorem factor_apply (v : S64x12x2.Idx → EReal) (a : ℕ → ℕ → EReal) (c : Fin 64)
    (ha : ∀ (s : Fin 12) (b : Fin 2), v (ix3 c s b) = a s.val b.val)
    (hi : S4096x64.Iotas .tc 32 [0]) (k : ℕ) (hk : k < 32) (s : Fin 12)
    (off1 off0 : Fin 3 → Nat) (hs1 : S64x12x2.Slices off1 S64x1x1) (hs0 : S64x12x2.Slices off0 S64x1x1)
    (h1 h1' : S64x1x1.ShapeCasts S64) (h2 h2' : S64.ShapeCasts S1x64) (h3 h3' : S1x64.ShapeCasts S1x64)
    (h4 h4' : S1x64.Broadcasts S4096x64)
    (hoff1 : off1 = ![0, s.val, 1]) (hoff0 : off0 = ![0, s.val, 0]) (r : Fin 4096) :
    select (cmpi .eq (andi (shrsi (iota .tc S4096x64 32 [0] hi) (broadcast S4096x64 (BitVec.ofNat 32 k))) (broadcast S4096x64 1#32))
        (broadcast S4096x64 1#32))
      (broadcastTo S4096x64 (shapeCast S1x64 (shapeCast S1x64 (shapeCast S64 (extractStridedSlice S64x1x1 off1 v hs1) h1) h2) h3) h4)
      (broadcastTo S4096x64 (shapeCast S1x64 (shapeCast S1x64 (shapeCast S64 (extractStridedSlice S64x1x1 off0 v hs0) h1') h2') h3') h4')
      (ix2 r c)
    = a s.val (r.val / 2 ^ k % 2) := by
  rw [select_apply, mask_apply, pick_apply v off1 hs1 h1 h2 h3 h4 s 1 hoff1, pick_apply v off0 hs0 h1' h2' h3' h4' s 0 hoff0, ha, ha,
    Cert.BitSelect.select_bit r.val k (by omega) hk]
  exact ite_bit (a s.val) _

/-- A pointwise product read at an index whose two operands are known there. -/
theorem mulf_step {s : Shape} (P Q : FVec Ideal s .f32) (i : s.Idx) (p q : EReal) (hp : P i = p) (hq : Q i = q) :
    mulf P Q i = p * q := by
  rw [mulf_apply, hp, hq]

section Stretches

variable (x0 : Vec Ideal S64x12x2 .f32) (a : ℕ → ℕ → EReal) (c : Fin 64)
  (ha : ∀ (s : Fin 12) (b : Fin 2), k0_pay3 x0 (ix3 c s b) = a s.val b.val) (hi : S4096x64.Iotas .tc 32 [0]) (r : Fin 4096)

include ha

/-- The first stretch: the all-ones array times the factors of steps 0 and 1 (bits 11 and 10 of the row). -/
theorem first_apply :
    k0_pay4 x0 (ix2 r c) = 1 * a 0 (r.val / 2 ^ 11 % 2) * a 1 (r.val / 2 ^ 10 % 2) := by
  unfold k0_pay4
  refine mulf_step _ _ _ _ _ (mulf_step _ _ _ _ _ (IdealRules.sign_bit.ideal_onePat .f32) (factor_apply (k0_pay3 x0) a c ha _ 11 (by omega) 0 _ _ _ _ _ _ _ _ _ _ _ _ rfl rfl r)) (factor_apply (k0_pay3 x0) a c ha _ 10 (by omega) 1 _ _ _ _ _ _ _ _ _ _ _ _ rfl rfl r)

/-- The second stretch: what came in times the factors of steps 2, 3 and 4 (bits 9, 8 and 7); the mask and the `0` column
    of step 2 are the two values carried in from the first stretch. -/
theorem second_apply (P : FVec Ideal S4096x64 .f32) (p : EReal) (hp : P (ix2 r c) = p) :
    k0_pay7 (k0_pay3 x0) (iota .tc S4096x64 32 [0] hi) P k0_pay5 (k0_pay6 x0) (ix2 r c)
      = p * a 2 (r.val / 2 ^ 9 % 2) * a 3 (r.val / 2 ^ 8 % 2) * a 4 (r.val / 2 ^ 7 % 2) := by
  unfold k0_pay7
  refine mulf_step _ _ _ _ _ (mulf_step _ _ _ _ _ (mulf_step _ _ _ _ _ hp (factor_apply (k0_pay3 x0) a c ha hi 9 (by omega) 2 _ _ _ _ _ _ _ _ _ _ _ _ rfl rfl r)) (factor_apply (k0_pay3 x0) a c ha hi 8 (by omega) 3 _ _ _ _ _ _ _ _ _ _ _ _ rfl rfl r)) (factor_apply (k0_pay3 x0) a c ha hi 7 (by omega) 4 _ _ _ _ _ _ _ _ _ _ _ _ rfl rfl r)

/-- The third stretch: steps 5, 6 and 7 (bits 6, 5 and 4); the mask of step 5 is carried in. -/
theorem third_apply (P : FVec Ideal S4096x64 .f32) (p : EReal) (hp : P (ix2 r c) = p) :
    k0_pay9 (k0_pay3 x0) (iota .tc S4096x64 32 [0] hi) P (k0_pay8 (iota .tc S4096x64 32 [0] hi)) (ix2 r c)
      = p * a 5 (r.val / 2 ^ 6 % 2) * a 6 (r.val / 2 ^ 5 % 2) * a 7 (r.val / 2 ^ 4 % 2) := by
  unfold k0_pay9
  refine mulf_step _ _ _ _ _ (mulf_step _ _ _ _ _ (mulf_step _ _ _ _ _ hp (factor_apply (k0_pay3 x0) a c ha hi 6 (by omega) 5 _ _ _ _ _ _ _ _ _ _ _ _ rfl rfl r)) (factor_apply (k0_pay3 x0) a c ha hi 5 (by omega) 6 _ _ _ _ _ _ _ _ _ _ _ _ rfl rfl r)) (factor_apply (k0_pay3 x0) a c ha hi 4 (by omega) 7 _ _ _ _ _ _ _ _ _ _ _ _ rfl rfl r)

/-- The fourth stretch: steps 8, 9 and 10 (bits 3, 2 and 1); the mask of step 8 is carried in. -/
theorem fourth_apply (P : FVec Ideal S4096x64 .f32) (p : EReal) (hp : P (ix2 r c) = p) :
    k0_pay11 (k0_pay3 x0) (iota .tc S4096x64 32 [0] hi) P (k0_pay10 (iota .tc S4096x64 32 [0] hi)) (ix2 r c)
      = p * a 8 (r.val / 2 ^ 3 % 2) * a 9 (r.val / 2 ^ 2 % 2) * a 10 (r.val / 2 ^ 1 % 2) := by
  unfold k0_pay11
  refine mulf_step _ _ _ _ _ (mulf_step _ _ _ _ _ (mulf_step _ _ _ _ _ hp (factor_apply (k0_pay3 x0) a c ha hi 3 (by omega) 8 _ _ _ _ _ _ _ _ _ _ _ _ rfl rfl r)) (factor_apply (k0_pay3 x0) a c ha hi 2 (by omega) 9 _ _ _ _ _ _ _ _ _ _ _ _ rfl rfl r)) (factor_apply (k0_pay3 x0) a c ha hi 1 (by omega) 10 _ _ _ _ _ _ _ _ _ _ _ _ rfl rfl r)

/-- The last stretch: step 11, chosen by the lowest bit of the row. -/
theorem last_apply (P : FVec Ideal S4096x64 .f32) (p : EReal) (hp : P (ix2 r c) = p) :
    k0_pay12 (k0_pay3 x0) (iota .tc S4096x64 32 [0] hi) P (ix2 r c) = p * a 11 (r.val / 2 ^ 0 % 2) := by
  unfold k0_pay12
  refine mulf_step _ _ _ _ _ hp (factor_apply (k0_pay3 x0) a c ha hi 0 (by omega) 11 _ _ _ _ _ _ _ _ _ _ _ _ rfl rfl r)

/-- THE BODY'S ARRAY at `(r, c)`: the Kronecker product of cell `c`'s twelve pairs at position `r`. -/
theorem body_apply :
    k0_pay12 (k0_pay3 x0) (iota .tc S4096x64 32 [0] hi)
      (k0_pay11 (k0_pay3 x0) (iota .tc S4096x64 32 [0] hi)
        (k0_pay9 (k0_pay3 x0) (iota .tc S4096x64 32 [0] hi)
          (k0_pay7 (k0_pay3 x0) (iota .tc S4096x64 32 [0] hi) (k0_pay4 x0) k0_pay5 (k0_pay6 x0))
          (k0_pay8 (iota .tc S4096x64 32 [0] hi)))
        (k0_pay10 (iota .tc S4096x64 32 [0] hi))) (ix2 r c)
      = kron a 11 r.val := by
  rw [kron_eleven]
  exact last_apply x0 a c ha hi r _ _ (fourth_apply x0 a c ha hi r _ _ (third_apply x0 a c ha hi r _ _
    (second_apply x0 a c ha hi r _ _ (first_apply x0 a c ha r))))

end Stretches

end Cert.KronKernel

end
-- ==== Proof.KernelValue.lean ====
/-
  The kernel's result array, from the blocks its grid points write.

  @main reshapes the [768, 2] table to [64, 12, 2] (row `12·c + s` becomes `(c, s)`: `staged_entry`), launches the body at
  16 grid points, and reshapes the [256, 4096, 64] output to [1, 256, 4096, 64]. Every grid point sees the whole table
  (`table_block`) and stores the same [4096, 64] array `K` — the body's product, `Cert.KronKernel.body_apply` — into each of
  the 16 batch rows of its output block (`block_apply`: sixteen stores, one per row, tile the block). Point `t`'s block is
  batch rows `16t … 16t + 15` of the output, so what it writes back is that block of the one array
  `(n, r, c) ↦ kron (pairs of cell c) 11 r` (`flushed_eq`), the blocks cover the output (`covered`), and the output ends holding
  that array (`final_array`). The last reshape only adds the leading unit axis (`tail_eq`), which gives the run (`run`).
-/
import proofs.«165443_j89146341196029_2_alg».proof.Proof.Gen.KernelIdeal.Frame
import proofs.«165443_j89146341196029_2_alg».proof.Proof.KernelBody
import proofs.«165443_j89146341196029_2_alg».proof.Proof.KronSpec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KronKernel

open Idealize.ShloMosaic Idealize.ShloMosaic.TcCoe Idealize.SL.Sem Idealize.ShloMosaic.ValueIdx
open Idealize.ShloMosaic.Pipeline (Dat)
open Cert.KernelIdeal Cert.KernelIdeal.Gen Cert.KronSpec

variable (m : (ℓ : Loc nD τ sig) → Buf (Elt Ideal) ℓ) (ρ : Dev nD → PrngReg)

/-- The second argument's table on core `c`. -/
abbrev tableOf (c : Dev nD) : S768x2.Idx → EReal := m ((c : Thread nD τ).loc main_arg1)

/-- The [64, 12, 2] array the kernel's input window stages is the table reshaped: entry `(c, s, b)` is the table's `(12·c + s, b)`. -/
theorem staged_entry (c : Dev nD) (cc : Fin 64) (s : Fin 12) (b : Fin 2) :
    (V m c main_v0 : S64x12x2.Idx → EReal) (ix3 cc s b) = entry (tableOf m c) cc.val s.val b.val := by
  have e : (V m c main_v0 : S64x12x2.Idx → EReal)
      = shapeCast S64x12x2 (tableOf m c) Cert.KernelIdeal.Facts₀.shapeCasts_S768x2_S64x12x2 := by
    show StableHlo.after hostOps0 (fun b => m (c, b)) (Proc.devRef .tc main_v0) = _
    after_results
    rfl
  have hlt : cc.val * 12 + s.val < 768 := by omega
  have er : (S768x2.rowMajor (ix2 (⟨cc.val * 12 + s.val, hlt⟩ : Fin 768) b)).val = (S64x12x2.rowMajor (ix3 cc s b)).val := by
    rw [Shape.rowMajor_val_two, Shape.rowMajor_val_three]
    rfl
  rw [e, shapeCast_apply _ _ (ix3 cc s b) (ix2 (⟨cc.val * 12 + s.val, hlt⟩ : Fin 768) b) er]
  exact entry_eq _ _ _ _ _ rfl rfl

/-- The printed index maps over the grid: the input window always takes block (0, 0, 0); the output window takes block
    `(t, 0, 0)` at point `t`. -/
theorem index_facts : ∀ t : Fin cfg0.N, win0_0.index t (0 : Fin 3) = 0 ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The input window's block at every point is the whole staged table. -/
theorem table_block (c : Dev nD) (t : Fin cfg0.N) (y : S64x12x2.Idx) :
    (iblk m c 0 t : Vec Ideal S64x12x2 .f32) y = (V m c main_v0 : S64x12x2.Idx → EReal) y := by
  obtain ⟨e0, e1, e2, -, -, -⟩ := index_facts t
  unfold iblk
  rw [View.read_apply]
  show V m c main_v0 _ = V m c main_v0 _
  congr 1
  funext a
  apply Fin.ext
  match a with
  | ⟨0, _⟩ => show win0_0.index t 0 * 64 + 1 * (y 0).val = (y 0).val; rw [e0]; omega
  | ⟨1, _⟩ => show win0_0.index t 1 * 12 + 1 * (y 1).val = (y 1).val; rw [e1]; omega
  | ⟨2, _⟩ => show win0_0.index t 2 * 2 + 1 * (y 2).val = (y 2).val; rw [e2]; omega

/-- Zero offsets, as the body's whole-buffer load writes them. -/
theorem hz : (![0, 0, 0] : Fin 3 → Nat) = fun _ => 0 := funext fun a => by fin_cases a <;> rfl

/-- What the body loads, at `(c, s, b)`, is the table's entry `(12·c + s, b)`. -/
theorem loaded_entry (c : Dev nD) (t : Fin cfg0.N) (cc : Fin 64) (s : Fin 12) (b : Fin 2) :
    k0_pay3 (View.ld (iblk m c 0 t) r0_0) (ix3 cc s b) = entry (tableOf m c) cc.val s.val b.val := by
  unfold k0_pay3
  rw [shapeCast_self, View.ld_unit_zero (S := S64x12x2) hz, table_block, staged_entry]

/-- One output block [16, 4096, 64] as a function of the table: the same [4096, 64] array in each of its 16 rows. -/
def blockOf (X : S768x2.Idx → EReal) : S16x4096x64.Idx → EReal := fun y => kron (entry X (y 2).val) 11 (y 1).val

/-- The output array [256, 4096, 64] as a function of the table: the same [4096, 64] array in each batch row. -/
def arrayOf (X : S768x2.Idx → EReal) : S256x4096x64.Idx → EReal := fun i => kron (entry X (i 2).val) 11 (i 1).val

/-- One store of the body: the [4096, 64] array viewed [1, 4096, 64] and stored through a one-row rectangle at column and
    cell offsets zero is, at the rectangle's local index, the block function at the index's place in the block. -/
theorem stored_piece (X : S768x2.Idx → EReal) (A : FVec Ideal S4096x64 .f32)
    (hA : ∀ (r : Fin 4096) (cc : Fin 64), A (ix2 r cc) = kron (entry X cc.val) 11 r.val)
    (h : S4096x64.ShapeCasts S1x4096x64) (off : Fin 3 → ℕ) (inb : ∀ a, off a + S1x4096x64.size a ≤ S16x4096x64.size a)
    (hoff : off 1 = 0 ∧ off 2 = 0) (x : S1x4096x64.Idx) :
    shapeCast S1x4096x64 A h x = blockOf X ((Rect.unit (s := S16x4096x64) off S1x4096x64.size inb).emb x) := by
  have e1 : (((Rect.unit (s := S16x4096x64) off S1x4096x64.size inb).emb x) 1).val = (x 1).val := by
    show off 1 + 1 * (x 1).val = _
    rw [hoff.1]; omega
  have e2 : (((Rect.unit (s := S16x4096x64) off S1x4096x64.size inb).emb x) 2).val = (x 2).val := by
    show off 2 + 1 * (x 2).val = _
    rw [hoff.2]; omega
  unfold blockOf
  rw [e1, e2]
  refine (shapeCast_addUnit_apply ![4096, 64] A h x).trans ?_
  have e : (fun a : Fin 2 => x a.succ) = ix2 (x 1) (x 2) := by
    funext a
    match a with
    | ⟨0, _⟩ => rfl
    | ⟨1, _⟩ => rfl
  rw [e]
  exact hA (x 1) (x 2)

/-- What the body leaves in the output window's buffer is the block function of the table. -/
theorem block_apply (c : Dev nD) (t : Fin cfg0.N) (y : S16x4096x64.Idx) :
    out0_1 (iblk m c 0 t) y = blockOf (tableOf m c) y := by
  have hA : ∀ (r : Fin 4096) (cc : Fin 64), _ = kron (entry (tableOf m c) cc.val) 11 r.val := fun r cc =>
    body_apply (View.ld (iblk m c 0 t) r0_0) (entry (tableOf m c) cc.val) cc (fun s b => loaded_entry m c t cc s b)
      Cert.KernelIdeal.Facts₀.iota_S4096x64_d0_w32 r
  unfold out0_1
  refine View.canon_apply_of_pieces (Val := Elt Ideal) (e := EltTy.f32) (blockOf (tableOf m c)) _ ?_ y (cover0_1 _ _ _ _ _ _ _ _ _ _ _ _ _ _ _ _ y)
  repeat' (first | refine List.forall_mem_cons.2 ⟨?_, ?_⟩ | exact fun _ h => absurd h List.not_mem_nil)
  all_goals exact fun x => stored_piece (tableOf m c) _ hA _ _ (by decide) ⟨rfl, rfl⟩ x

/-- What point `t` writes back is block `t` of the output array's function: the block's coordinates on the position and
    cell axes are the array's, and the function does not look at the batch coordinate. -/
theorem flushed_eq (c : Dev nD) (t : Fin cfg0.N) :
    (dats m 0 c).flushed 1 t = ((cfg0.win 1).blk t).view.read (Elt Ideal) (arrayOf (tableOf m c)) := by
  obtain ⟨-, -, -, -, e1, e2⟩ := index_facts t
  show (cfg0.win 1).cut (grid0.coords t) ((dats m 0 c).after 1 t) = _
  rw [after0_1]
  funext j
  rw [View.read_apply]
  show out0_1 (iblk m c 0 t) ((cfg0.win 1).xinj (grid0.coords t) j) = arrayOf (tableOf m c) (((cfg0.win 1).blk t).view.emb j)
  rw [block_apply]
  have h1 : ((((cfg0.win 1).blk t).view.emb j) 1).val = (j 1).val := by
    show win0_1.index t 1 * 4096 + 1 * (j 1).val = _
    rw [e1]; omega
  have h2 : ((((cfg0.win 1).blk t).view.emb j) 2).val = (j 2).val := by
    show win0_1.index t 2 * 64 + 1 * (j 2).val = _
    rw [e2]; omega
  unfold blockOf arrayOf
  rw [h1, h2]

/-- An index of the output array lies in point `t`'s block iff each coordinate lies in the block's range on its axis. -/
theorem mem_blk (t : Fin cfg0.N) (i : S256x4096x64.Idx) :
    i ∈ ((cfg0.win 1).blk t).view.set ↔ ∀ a : Fin 3, win0_1.index t a * S16x4096x64.size a ≤ (i a).val
      ∧ (i a).val < win0_1.index t a * S16x4096x64.size a + S16x4096x64.size a := by
  show i ∈ ((View.whole main_v1).slice (win0_1.rect t)).set ↔ _
  rw [View.set_slice_whole, Rect.mem_set_unit]
  exact Iff.rfl

/-- Every index of the output array lies in the block of the point `n / 16`, `n` its batch coordinate. -/
theorem covered (i : S256x4096x64.Idx) :
    ∃ t : Fin cfg0.N, (cfg0.win 1).flush t = true ∧ i ∈ ((cfg0.win 1).blk t).view.set := by
  have h0 : (i 0).val < 256 := (i 0).isLt
  have h1 : (i 1).val < 4096 := (i 1).isLt
  have h2 : (i 2).val < 64 := (i 2).isLt
  have hN : cfg0.N = 16 := N_0
  let t : Fin cfg0.N := ⟨(i 0).val / 16, by rw [hN]; omega⟩
  obtain ⟨-, -, -, e0, e1, e2⟩ := index_facts t
  refine ⟨t, flush0_1 t, ?_⟩
  rw [mem_blk]
  intro a
  match a with
  | ⟨0, _⟩ =>
    show win0_1.index t 0 * 16 ≤ (i 0).val ∧ (i 0).val < win0_1.index t 0 * 16 + 16
    rw [e0]; show (i 0).val / 16 * 16 ≤ (i 0).val ∧ (i 0).val < (i 0).val / 16 * 16 + 16; omega
  | ⟨1, _⟩ =>
    show win0_1.index t 1 * 4096 ≤ (i 1).val ∧ (i 1).val < win0_1.index t 1 * 4096 + 4096
    rw [e1]; omega
  | ⟨2, _⟩ =>
    show win0_1.index t 2 * 64 ≤ (i 2).val ∧ (i 2).val < win0_1.index t 2 * 64 + 64
    rw [e2]; omega

/-- The output array after the region. -/
theorem final_array (c : Dev nD) : (dats m 0 c).arrAt 1 cfg0.N = arrayOf (tableOf m c) :=
  (dats m 0 c).arrAt_eq_of_cover 1 (arrayOf (tableOf m c)) (fun t _ => flushed_eq m c t) covered

/-- The result after the host reshape that follows the region: the output array with a leading unit axis, which is `G`. -/
theorem tail_eq (c : Dev nD) :
    Pipeline.afterTail₀ cfgs (dats m) 0 (V0 m) [hostOps1] c main_v2 = G (tableOf m c) := by
  unfold Pipeline.afterTail₀
  show StableHlo.after hostOps1 _ (Proc.devRef .tc main_v2) = _
  after_results
  funext i
  obtain ⟨g, n, r, cc, rfl⟩ : ∃ (g : Fin 1) (n : Fin 256) (r : Fin 4096) (cc : Fin 64), i = ix4 g n r cc :=
    ⟨i 0, i 1, i 2, i 3, eq_ix4 i⟩
  have ew : Pipeline.withArrays (cfgs 0).spec c (V0 m c) (fun w => (dats m 0 c).arrAt w (cfgs 0).N) (Proc.devRef .tc main_v1)
      = arrayOf (tableOf m c) :=
    (Pipeline.withArrays_arr spec0 launch0.win.arr_inj c _ _ 1).trans (final_array m c)
  rw [ew]
  have er : (S256x4096x64.rowMajor (ix3 n r cc)).val = (S1x256x4096x64.rowMajor (ix4 g n r cc)).val := by
    rw [Shape.rowMajor_val_three, Shape.rowMajor_val_four]
    show (n.val * 4096 + r.val) * 64 + cc.val = ((g.val * 256 + n.val) * 4096 + r.val) * 64 + cc.val
    omega
  show shapeCast S1x256x4096x64 (arrayOf (tableOf m c)) Cert.KernelIdeal.Facts₀.shapeCasts_S256x4096x64_S1x256x4096x64 (ix4 g n r cc) = _
  rw [shapeCast_apply _ _ (ix4 g n r cc) (ix3 n r cc) er]
  rfl

/-- THE KERNEL'S RUN, READ: every weakly fair execution ends with the result array at `G` of the table and both arguments
    as launched. -/
theorem run : θ_run defs (onTc (τ := τ) (main (F := Ideal))) ⟨m, fun _ => 0, ρ⟩ fun r => ∀ c : Dev nD,
      r.2.mem ((c.tc : Thread nD τ).loc main_v2) = G (tableOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KronKernel

end
-- ==== Proof.LibKronDoubling.lean ====
/-
  One doubling step of a Kronecker product of pairs, as a host program spells it, read at coordinates — at any extents.

  Given `prev` of shape [e0, e1, e2, N] (the product of the earlier pairs, `N` positions on its last axis) and a table
  `tbl` of shape [e0, e1, e2, K, 2] (pair `k` of each cell on its two last axes), the step

      reshape( prev[..., :, None] * tbl[..., k, None, :] ) : [e0, e1, e2, 2N]

  is written with a slice of pair `k`, a reshape that drops the sliced unit axis, two broadcasts that insert the new
  axes, two broadcasts to the common shape [e0, e1, e2, N, 2], a product, and the reshape that merges the two last axes.
  At position `j` of the merged axis the result is `prev` at `j / 2` times entry `j % 2` of pair `k`: the new pair takes the
  lowest bit of the position (`doubling_step`). The merged extent is a separate variable `M` with `M = N * 2`, so that
  shapes written with literal extents match the statement as they stand.
-/
import Idealize.ShloMosaic.PureOps.Ideal
import Idealize.ShloMosaic.Lib.ValueIdx
import Idealize.ShloMosaic.Lib.Pipeline.Value

noncomputable section

namespace Cert.LibKronDoubling

open Idealize.ShloMosaic Idealize.ShloMosaic.ValueIdx

/-- A coordinate on an axis of extent `n` is what a broadcast reads there: itself, and `0` when the axis is a unit axis. -/
theorem coord_eq_bcast {n : ℕ} (g : Fin n) : g.val = if n = 1 then 0 else g.val := by
  split_ifs with h
  · have := g.isLt; omega
  · rfl

variable {e0 e1 e2 N M K : ℕ}

/-- The doubling step read at `(g, n, c, j)`: the earlier product at `j / 2` times entry `j % 2` of pair `k`. -/
theorem doubling_step
    (prev : (⟨4, ![e0, e1, e2, N]⟩ : Shape).Idx → EReal)
    (tbl : (⟨5, ![e0, e1, e2, K, 2]⟩ : Shape).Idx → EReal)
    (off : Fin 5 → Nat) (k : Fin K) (hoff : off = ![0, 0, 0, k.val, 0]) (hNM : M = N * 2)
    (hS : (⟨5, ![e0, e1, e2, K, 2]⟩ : Shape).Slices off ⟨5, ![e0, e1, e2, 1, 2]⟩)
    (hR : (⟨5, ![e0, e1, e2, 1, 2]⟩ : Shape).ShapeCasts ⟨4, ![e0, e1, e2, 2]⟩)
    (hB : (⟨4, ![e0, e1, e2, 2]⟩ : Shape).BroadcastsInDim ⟨5, ![e0, e1, e2, 1, 2]⟩ ![0, 1, 2, 4])
    (hB' : (⟨5, ![e0, e1, e2, 1, 2]⟩ : Shape).BroadcastsInDim ⟨5, ![e0, e1, e2, N, 2]⟩ ![0, 1, 2, 3, 4])
    (hA : (⟨4, ![e0, e1, e2, N]⟩ : Shape).BroadcastsInDim ⟨5, ![e0, e1, e2, N, 1]⟩ ![0, 1, 2, 3])
    (hA' : (⟨5, ![e0, e1, e2, N, 1]⟩ : Shape).BroadcastsInDim ⟨5, ![e0, e1, e2, N, 2]⟩ ![0, 1, 2, 3, 4])
    (hM : (⟨5, ![e0, e1, e2, N, 2]⟩ : Shape).ShapeCasts ⟨4, ![e0, e1, e2, M]⟩)
    (g : Fin e0) (n : Fin e1) (c : Fin e2) (j : Fin M) :
    shapeCast ⟨4, ![e0, e1, e2, M]⟩
      (mulf (F := Ideal) (φ := .f32)
        (broadcastInDim ⟨5, ![e0, e1, e2, N, 2]⟩ ![0, 1, 2, 3, 4] hA'
          (broadcastInDim ⟨5, ![e0, e1, e2, N, 1]⟩ ![0, 1, 2, 3] hA prev))
        (broadcastInDim ⟨5, ![e0, e1, e2, N, 2]⟩ ![0, 1, 2, 3, 4] hB'
          (broadcastInDim ⟨5, ![e0, e1, e2, 1, 2]⟩ ![0, 1, 2, 4] hB
            (shapeCast ⟨4, ![e0, e1, e2, 2]⟩ (extractStridedSlice ⟨5, ![e0, e1, e2, 1, 2]⟩ off tbl hS) hR)))) hM (ix4 g n c j)
      = prev (ix4 g n c ⟨j.val / 2, by omega⟩) * tbl (ix5 g n c k ⟨j.val % 2, by omega⟩) := by
  subst hoff
  have hq : j.val / 2 < N := by omega
  have hr : j.val % 2 < 2 := by omega
  have eM : ((⟨5, ![e0, e1, e2, N, 2]⟩ : Shape).rowMajor (ix5 g n c ⟨j.val / 2, hq⟩ ⟨j.val % 2, hr⟩)).val
      = ((⟨4, ![e0, e1, e2, M]⟩ : Shape).rowMajor (ix4 g n c j)).val := by
    rw [Shape.rowMajor_val_five, Shape.rowMajor_val_four]
    show (((g.val * e1 + n.val) * e2 + c.val) * N + j.val / 2) * 2 + j.val % 2 = ((g.val * e1 + n.val) * e2 + c.val) * M + j.val
    have hXM : ((g.val * e1 + n.val) * e2 + c.val) * M = ((g.val * e1 + n.val) * e2 + c.val) * N * 2 := by
      rw [hNM, Nat.mul_assoc]
    rw [hXM, Nat.add_mul]
    omega
  rw [shapeCast_apply _ hM (ix4 g n c j) (ix5 g n c ⟨j.val / 2, hq⟩ ⟨j.val % 2, hr⟩) eM]
  rw [mulf_apply]
  congr 1
  · rw [broadcastInDim_apply _ hA' _ _ (ix5 g n c ⟨j.val / 2, hq⟩ (0 : Fin 1)) (fun a => by
      match a with
      | ⟨0, _⟩ => exact coord_eq_bcast g
      | ⟨1, _⟩ => exact coord_eq_bcast n
      | ⟨2, _⟩ => exact coord_eq_bcast c
      | ⟨3, _⟩ => exact coord_eq_bcast (⟨j.val / 2, hq⟩ : Fin N)
      | ⟨4, _⟩ => exact (if_pos rfl).symm)]
    exact broadcastInDim_apply _ hA prev _ (ix4 g n c ⟨j.val / 2, hq⟩) (fun a => by
      match a with
      | ⟨0, _⟩ => exact coord_eq_bcast g
      | ⟨1, _⟩ => exact coord_eq_bcast n
      | ⟨2, _⟩ => exact coord_eq_bcast c
      | ⟨3, _⟩ => exact coord_eq_bcast (⟨j.val / 2, hq⟩ : Fin N))
  · rw [broadcastInDim_apply _ hB' _ _ (ix5 g n c (0 : Fin 1) ⟨j.val % 2, hr⟩) (fun a => by
      match a with
      | ⟨0, _⟩ => exact coord_eq_bcast g
      | ⟨1, _⟩ => exact coord_eq_bcast n
      | ⟨2, _⟩ => exact coord_eq_bcast c
      | ⟨3, _⟩ => exact (if_pos rfl).symm
      | ⟨4, _⟩ => exact coord_eq_bcast (⟨j.val % 2, hr⟩ : Fin 2))]
    rw [broadcastInDim_apply _ hB _ _ (ix4 g n c ⟨j.val % 2, hr⟩) (fun a => by
      match a with
      | ⟨0, _⟩ => exact coord_eq_bcast g
      | ⟨1, _⟩ => exact coord_eq_bcast n
      | ⟨2, _⟩ => exact coord_eq_bcast c
      | ⟨3, _⟩ => exact coord_eq_bcast (⟨j.val % 2, hr⟩ : Fin 2))]
    have eR : ((⟨5, ![e0, e1, e2, 1, 2]⟩ : Shape).rowMajor (ix5 g n c (0 : Fin 1) ⟨j.val % 2, hr⟩)).val
        = ((⟨4, ![e0, e1, e2, 2]⟩ : Shape).rowMajor (ix4 g n c ⟨j.val % 2, hr⟩)).val := by
      rw [Shape.rowMajor_val_five, Shape.rowMajor_val_four]
      show (((g.val * e1 + n.val) * e2 + c.val) * 1 + 0) * 2 + j.val % 2 = ((g.val * e1 + n.val) * e2 + c.val) * 2 + j.val % 2
      rw [Nat.mul_one, Nat.add_zero]
    rw [shapeCast_apply _ hR _ (ix5 g n c (0 : Fin 1) ⟨j.val % 2, hr⟩) eR]
    exact extractStridedSlice_apply _ tbl hS _ (ix5 g n c k ⟨j.val % 2, hr⟩) (fun a => by
      match a with
      | ⟨0, _⟩ => exact (Nat.zero_add _).symm
      | ⟨1, _⟩ => exact (Nat.zero_add _).symm
      | ⟨2, _⟩ => exact (Nat.zero_add _).symm
      | ⟨3, _⟩ => exact (Nat.add_zero _).symm
      | ⟨4, _⟩ => exact (Nat.zero_add _).symm)

end Cert.LibKronDoubling

end
-- ==== Proof.RefValue.lean ====
/-
  The reference's result, read back: the doubling recursion itself.

  The reference broadcasts the [768, 2] table over the (1, 256) leading axes and views it [1, 256, 64, 12, 2]: entry
  `(g, n, c, s, b)` is row `12·c + s`, column `b` of the table, whatever `g` and `n` (`table_apply`). It starts from pair 0 of
  every cell (`base_apply`) and makes eleven doubling steps, each the outer product of what it has with the next pair,
  flattened (one instance of `Cert.LibKronDoubling.doubling_step` per step: `step1_apply` … `step11_apply`). After step `k` the
  entry at position `j` is `kron` of the cell's pairs `0 … k` at `j`. The final transpose swaps the position axis and the
  cell axis (`result_eq`).
-/
import proofs.«165443_j89146341196029_2_alg».proof.Proof.Gen.ReferenceIdeal.Read
import proofs.«165443_j89146341196029_2_alg».proof.Proof.KronSpec
import proofs.«165443_j89146341196029_2_alg».proof.Proof.LibKronDoubling
import Idealize.ShloMosaic.Lib.ValueIdx
import Idealize.ShloMosaic.Lib.Pipeline.Value

noncomputable section

namespace Cert.KronRef

open Idealize.ShloMosaic Idealize.ShloMosaic.ValueIdx Cert.ReferenceIdeal Cert.ReferenceIdeal.Gen Cert.ReferenceIdeal.Read
open Cert.KronSpec Cert.LibKronDoubling

variable (x : (⟨S768x2, .f32⟩ : BufTy).Contents (Elt Ideal))

/-- The broadcast table viewed [1, 256, 64, 12, 2]: entry `(g, n, c, s, b)` is the table's `(12·c + s, b)`. -/
theorem table_apply (g : Fin 1) (n : Fin 256) (c : Fin 64) (s : Fin 12) (b : Fin 2) :
    val_main_v1 (F := Ideal) x (ix5 g n c s b) = entry x c.val s.val b.val := by
  rw [val_main_v1_apply, val_main_v0_apply]
  refine entry_eq x _ c.val s.val b.val ?_ ?_
  · show ((((g.val * 256 + n.val) * 64 + c.val) * 12 + s.val) * 2 + b.val) / 2 % 768 = c.val * 12 + s.val
    omega
  · show ((((g.val * 256 + n.val) * 64 + c.val) * 12 + s.val) * 2 + b.val) % 2 = b.val
    omega

/-- The start: pair 0 of each cell, two positions. -/
theorem base_apply (g : Fin 1) (n : Fin 256) (c : Fin 64) (j : Fin 2) :
    val_main_v3 (F := Ideal) x (ix4 g n c j) = kron (entry x c.val) 0 j.val := by
  rw [val_main_v3_apply, val_main_v2_apply]
  have e : idx_main_v2 (idx_main_v3 (ix4 g n c j)) = ix5 g n c (0 : Fin 12) j := by
    funext a
    apply Fin.ext
    match a with
    | ⟨0, _⟩ => show 0 = g.val; omega
    | ⟨1, _⟩ => show (((g.val * 256 + n.val) * 64 + c.val) * 2 + j.val) / 128 % 256 = n.val; omega
    | ⟨2, _⟩ => show (((g.val * 256 + n.val) * 64 + c.val) * 2 + j.val) / 2 % 64 = c.val; omega
    | ⟨3, _⟩ => show 0 + 0 = 0; rfl
    | ⟨4, _⟩ => show (((g.val * 256 + n.val) * 64 + c.val) * 2 + j.val) % 2 = j.val; omega
  rw [e, table_apply, kron_zero, Nat.mod_eq_of_lt j.isLt]
  rfl

/-- Step 1: 4 positions; pair 1 takes the lowest bit. -/
theorem step1_apply (g : Fin 1) (n : Fin 256) (c : Fin 64) (j : Fin 4) :
    val_main_v11 (F := Ideal) x (ix4 g n c j) = kron (entry x c.val) 1 j.val := by
  unfold val_main_v11 val_main_v10 val_main_v8 val_main_v4 val_main_v9 val_main_v7 val_main_v6 val_main_v5
  refine (doubling_step (val_main_v3 (F := Ideal) x) (val_main_v1 (F := Ideal) x) _ (1 : Fin 12) rfl rfl _ _ _ _ _ _ _ g n c j).trans ?_
  rw [base_apply, table_apply]
  rfl

/-- Step 2: 8 positions; pair 2 takes the lowest bit. -/
theorem step2_apply (g : Fin 1) (n : Fin 256) (c : Fin 64) (j : Fin 8) :
    val_main_v19 (F := Ideal) x (ix4 g n c j) = kron (entry x c.val) 2 j.val := by
  unfold val_main_v19 val_main_v18 val_main_v16 val_main_v12 val_main_v17 val_main_v15 val_main_v14 val_main_v13
  refine (doubling_step (val_main_v11 (F := Ideal) x) (val_main_v1 (F := Ideal) x) _ (2 : Fin 12) rfl rfl _ _ _ _ _ _ _ g n c j).trans ?_
  rw [step1_apply, table_apply]
  rfl

/-- Step 3: 16 positions; pair 3 takes the lowest bit. -/
theorem step3_apply (g : Fin 1) (n : Fin 256) (c : Fin 64) (j : Fin 16) :
    val_main_v27 (F := Ideal) x (ix4 g n c j) = kron (entry x c.val) 3 j.val := by
  unfold val_main_v27 val_main_v26 val_main_v24 val_main_v20 val_main_v25 val_main_v23 val_main_v22 val_main_v21
  refine (doubling_step (val_main_v19 (F := Ideal) x) (val_main_v1 (F := Ideal) x) _ (3 : Fin 12) rfl rfl _ _ _ _ _ _ _ g n c j).trans ?_
  rw [step2_apply, table_apply]
  rfl

/-- Step 4: 32 positions; pair 4 takes the lowest bit. -/
theorem step4_apply (g : Fin 1) (n : Fin 256) (c : Fin 64) (j : Fin 32) :
    val_main_v35 (F := Ideal) x (ix4 g n c j) = kron (entry x c.val) 4 j.val := by
  unfold val_main_v35 val_main_v34 val_main_v32 val_main_v28 val_main_v33 val_main_v31 val_main_v30 val_main_v29
  refine (doubling_step (val_main_v27 (F := Ideal) x) (val_main_v1 (F := Ideal) x) _ (4 : Fin 12) rfl rfl _ _ _ _ _ _ _ g n c j).trans ?_
  rw [step3_apply, table_apply]
  rfl

/-- Step 5: 64 positions; pair 5 takes the lowest bit. -/
theorem step5_apply (g : Fin 1) (n : Fin 256) (c : Fin 64) (j : Fin 64) :
    val_main_v43 (F := Ideal) x (ix4 g n c j) = kron (entry x c.val) 5 j.val := by
  unfold val_main_v43 val_main_v42 val_main_v40 val_main_v36 val_main_v41 val_main_v39 val_main_v38 val_main_v37
  refine (doubling_step (val_main_v35 (F := Ideal) x) (val_main_v1 (F := Ideal) x) _ (5 : Fin 12) rfl rfl _ _ _ _ _ _ _ g n c j).trans ?_
  rw [step4_apply, table_apply]
  rfl

/-- Step 6: 128 positions; pair 6 takes the lowest bit. -/
theorem step6_apply (g : Fin 1) (n : Fin 256) (c : Fin 64) (j : Fin 128) :
    val_main_v51 (F := Ideal) x (ix4 g n c j) = kron (entry x c.val) 6 j.val := by
  unfold val_main_v51 val_main_v50 val_main_v48 val_main_v44 val_main_v49 val_main_v47 val_main_v46 val_main_v45
  refine (doubling_step (val_main_v43 (F := Ideal) x) (val_main_v1 (F := Ideal) x) _ (6 : Fin 12) rfl rfl _ _ _ _ _ _ _ g n c j).trans ?_
  rw [step5_apply, table_apply]
  rfl

/-- Step 7: 256 positions; pair 7 takes the lowest bit. -/
theorem step7_apply (g : Fin 1) (n : Fin 256) (c : Fin 64) (j : Fin 256) :
    val_main_v59 (F := Ideal) x (ix4 g n c j) = kron (entry x c.val) 7 j.val := by
  unfold val_main_v59 val_main_v58 val_main_v56 val_main_v52 val_main_v57 val_main_v55 val_main_v54 val_main_v53
  refine (doubling_step (val_main_v51 (F := Ideal) x) (val_main_v1 (F := Ideal) x) _ (7 : Fin 12) rfl rfl _ _ _ _ _ _ _ g n c j).trans ?_
  rw [step6_apply, table_apply]
  rfl

/-- Step 8: 512 positions; pair 8 takes the lowest bit. -/
theorem step8_apply (g : Fin 1) (n : Fin 256) (c : Fin 64) (j : Fin 512) :
    val_main_v67 (F := Ideal) x (ix4 g n c j) = kron (entry x c.val) 8 j.val := by
  unfold val_main_v67 val_main_v66 val_main_v64 val_main_v60 val_main_v65 val_main_v63 val_main_v62 val_main_v61
  refine (doubling_step (val_main_v59 (F := Ideal) x) (val_main_v1 (F := Ideal) x) _ (8 : Fin 12) rfl rfl _ _ _ _ _ _ _ g n c j).trans ?_
  rw [step7_apply, table_apply]
  rfl

/-- Step 9: 1024 positions; pair 9 takes the lowest bit. -/
theorem step9_apply (g : Fin 1) (n : Fin 256) (c : Fin 64) (j : Fin 1024) :
    val_main_v75 (F := Ideal) x (ix4 g n c j) = kron (entry x c.val) 9 j.val := by
  unfold val_main_v75 val_main_v74 val_main_v72 val_main_v68 val_main_v73 val_main_v71 val_main_v70 val_main_v69
  refine (doubling_step (val_main_v67 (F := Ideal) x) (val_main_v1 (F := Ideal) x) _ (9 : Fin 12) rfl rfl _ _ _ _ _ _ _ g n c j).trans ?_
  rw [step8_apply, table_apply]
  rfl

/-- Step 10: 2048 positions; pair 10 takes the lowest bit. -/
theorem step10_apply (g : Fin 1) (n : Fin 256) (c : Fin 64) (j : Fin 2048) :
    val_main_v83 (F := Ideal) x (ix4 g n c j) = kron (entry x c.val) 10 j.val := by
  unfold val_main_v83 val_main_v82 val_main_v80 val_main_v76 val_main_v81 val_main_v79 val_main_v78 val_main_v77
  refine (doubling_step (val_main_v75 (F := Ideal) x) (val_main_v1 (F := Ideal) x) _ (10 : Fin 12) rfl rfl _ _ _ _ _ _ _ g n c j).trans ?_
  rw [step9_apply, table_apply]
  rfl

/-- Step 11: 4096 positions; pair 11 takes the lowest bit. -/
theorem step11_apply (g : Fin 1) (n : Fin 256) (c : Fin 64) (j : Fin 4096) :
    val_main_v91 (F := Ideal) x (ix4 g n c j) = kron (entry x c.val) 11 j.val := by
  unfold val_main_v91 val_main_v90 val_main_v88 val_main_v84 val_main_v89 val_main_v87 val_main_v86 val_main_v85
  refine (doubling_step (val_main_v83 (F := Ideal) x) (val_main_v1 (F := Ideal) x) _ (11 : Fin 12) rfl rfl _ _ _ _ _ _ _ g n c j).trans ?_
  rw [step10_apply, table_apply]
  rfl

/-- THE REFERENCE'S RESULT is `G` of the table: the transposed last step. -/
theorem result_eq : val_main_v92 (F := Ideal) x = G x := by
  funext i
  obtain ⟨g, n, r, c, rfl⟩ : ∃ (g : Fin 1) (n : Fin 256) (r : Fin 4096) (c : Fin 64), i = ix4 g n r c :=
    ⟨i 0, i 1, i 2, i 3, eq_ix4 i⟩
  rw [val_main_v92_apply]
  have e : idx_main_v92 (ix4 g n r c) = ix4 g n c r := by
    funext a
    match a with
    | ⟨0, _⟩ => rfl
    | ⟨1, _⟩ => rfl
    | ⟨2, _⟩ => rfl
    | ⟨3, _⟩ => rfl
  rw [e, step11_apply]
  rfl

end Cert.KronRef

end
-- ==== Proof.lean ====
/-
  The claim: the kernel and its reference compute the same array, as extended reals.

  Both programs ignore their first argument's values and compute, from the [768, 2] table `amp`, the array whose entry at
  `(0, n, r, c)` is the Kronecker product of the twelve pairs `amp[12c + s, ·]`, `s = 0 … 11`, read at position `r`: the product
  over `s` of `amp[12c + s, bit (11 − s) of r]` (Proof/KronSpec.lean, `G`). The reference reaches it by eleven doubling steps
  (Proof/RefValue.lean over Proof/LibKronDoubling.lean), the kernel by selecting each factor with a bit of the row number and
  multiplying the factors in the same order from an all-ones start (Proof/KernelBody.lean over Proof/BitSelect.lean), writing
  the same [4096, 64] array to every batch row (Proof/KernelValue.lean). The two sides multiply the same factors in the same
  order, so the only law used is `1 · x = x`, and the precondition is not needed for the value.

  The three frames are the generated runs; the idealization rewrote nothing, so `preserves` is trivial.
-/
import proofs.«165443_j89146341196029_2_alg».proof.Defs
import proofs.«165443_j89146341196029_2_alg».proof.Proof.Gen.Kernel
import proofs.«165443_j89146341196029_2_alg».proof.Proof.Gen.Kernel.Skeleton
import proofs.«165443_j89146341196029_2_alg».proof.Proof.Gen.Kernel.Launch
import proofs.«165443_j89146341196029_2_alg».proof.Proof.Gen.Kernel.Points
import proofs.«165443_j89146341196029_2_alg».proof.Proof.Gen.Kernel.Frame
import proofs.«165443_j89146341196029_2_alg».proof.Proof.Gen.KernelIdeal
import proofs.«165443_j89146341196029_2_alg».proof.Proof.Gen.KernelIdeal.Skeleton
import proofs.«165443_j89146341196029_2_alg».proof.Proof.Gen.KernelIdeal.Launch
import proofs.«165443_j89146341196029_2_alg».proof.Proof.Gen.KernelIdeal.Points
import proofs.«165443_j89146341196029_2_alg».proof.Proof.Gen.KernelIdeal.Frame
import proofs.«165443_j89146341196029_2_alg».proof.Proof.Gen.ReferenceIdeal
import proofs.«165443_j89146341196029_2_alg».proof.Proof.Gen.ReferenceIdeal.Run
import proofs.«165443_j89146341196029_2_alg».proof.Proof.Gen.ReferenceIdeal.Read
import proofs.«165443_j89146341196029_2_alg».proof.Proof.Gen.Pre_finite_inputs
import proofs.«165443_j89146341196029_2_alg».proof.Proof.KronSpec
import proofs.«165443_j89146341196029_2_alg».proof.Proof.KernelValue
import proofs.«165443_j89146341196029_2_alg».proof.Proof.RefValue
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- The idealized kernel runs and leaves its arguments unchanged: the generated frame. -/
theorem frame_kernelIdeal : Cert.frame_KernelIdeal := fun m ρ _ => Cert.KernelIdeal.Gen.frame m ρ

/-- The reference runs and leaves its arguments unchanged: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result array and the reference's are both `G` of the table. -/
theorem algebraic : Cert.algebraic_KernelIdeal_ReferenceIdeal := by
  intro m ρ m' ρ' _ hagree
  refine ⟨fun c => Cert.KronSpec.G (Cert.KronKernel.tableOf m c), Cert.KronKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v92_eq, Cert.KronRef.result_eq, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
